-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x4 : Shape := ⟨2, ![64, 4]⟩
abbrev S4 : Shape := ⟨1, ![4]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S64 .f32) (main_arg6 : FVec F S64x4 .f32) (main_arg7 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4 .f32 := Host.absf main_arg6
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x4 .f32) (main_arg7 : FVec F S4 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x4 : Shape := ⟨2, ![64, 4]⟩
abbrev S4 : Shape := ⟨1, ![4]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x64 : Shape := ⟨2, ![1, 64]⟩
abbrev S1x4 : Shape := ⟨2, ![1, 4]⟩
abbrev S10000x64 : Shape := ⟨2, ![10000, 64]⟩
abbrev S10000x1 : Shape := ⟨2, ![10000, 1]⟩
abbrev S850000x64 : Shape := ⟨2, ![850000, 64]⟩
abbrev S50000x4 : Shape := ⟨2, ![50000, 4]⟩
abbrev S10000x4 : Shape := ⟨2, ![10000, 4]⟩
abbrev S850000x4 : Shape := ⟨2, ![850000, 4]⟩

abbrev nBuf : Space → Nat
  | .hbm => 75
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S1x64, .f32⟩
  | .hbm, ⟨30, _⟩ => ⟨S1x64, .f32⟩
  | .hbm, ⟨31, _⟩ => ⟨S1x4, .f32⟩
  | .hbm, ⟨32, _⟩ => ⟨S50000x64, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x64, .f32⟩
  | .hbm, ⟨42, _⟩ => ⟨S_, .f32⟩
  | .hbm, ⟨43, _⟩ => ⟨S50000x64, .f32⟩
  | .hbm, ⟨44, _⟩ => ⟨S850000x1, .i32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S_, .f32⟩
  | .hbm, ⟨57, _⟩ => ⟨S50000x64, .f32⟩
  | .hbm, ⟨58, _⟩ => ⟨S850000x1, .i32⟩
  | .hbm, ⟨59, _⟩ => ⟨S50000x64, .f32⟩
  | .hbm, ⟨60, _⟩ => ⟨S50000x4, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x4, .f32⟩
  | .hbm, ⟨70, _⟩ => ⟨S_, .f32⟩
  | .hbm, ⟨71, _⟩ => ⟨S50000x4, .f32⟩
  | .hbm, ⟨72, _⟩ => ⟨S850000x1, .i32⟩
  | .hbm, ⟨73, _⟩ => ⟨S50000x4, .f32⟩
  | .hbm, ⟨74, _⟩ => ⟨S50000x4, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S10000x1, .f32⟩
  | .local _ .vmem, ⟨11, _⟩ => ⟨S10000x1, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x1, .f32⟩
  | .local _ .vmem, ⟨19, _⟩ => ⟨S10000x1, .f32⟩
  | .local _ .vmem, ⟨20, _⟩ => ⟨S64x4, .f32⟩
  | .local _ .vmem, ⟨21, _⟩ => ⟨S10000x4, .f32⟩
  | .local _ .vmem, ⟨22, _⟩ => ⟨S10000x4, .f32⟩
  | .local _ .vmem, ⟨23, _⟩ => ⟨S10000x4, .f32⟩
  | .local _ .vmem, ⟨24, _⟩ => ⟨S10000x4, .f32⟩
  | .local _ .vmem, ⟨25, _⟩ => ⟨S1x4, .f32⟩
  | .local _ .vmem, ⟨26, _⟩ => ⟨S10000x1, .f32⟩
  | .local _ .vmem, ⟨27, _⟩ => ⟨S10000x1, .f32⟩
  | .local _ .vmem, ⟨28, _⟩ => ⟨S10000x4, .f32⟩
  | .local _ .vmem, ⟨29, _⟩ => ⟨S10000x4, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x4 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x4 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S64_S1x64 : S64.ShapeCasts S1x64
  shapeCasts_S4_S1x4 : S4.ShapeCasts S1x4
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S50000x64 : S_.BroadcastsInDim S50000x64 (![] : Fin 0 → Fin S50000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x4_S64x4_0_0 : ∀ a, (![0, 0] : Fin 2 → Nat) a + S64x4.size a ≤ S64x4.size a
  h_S64x4 : 0 < S64x4.numel
  broadcasts_S10000x1_S10000x4 : S10000x1.Broadcasts S10000x4
  inb_S10000x4_S10000x4_0_0 : ∀ a, (![0, 0] : Fin 2 → Nat) a + S10000x4.size a ≤ S10000x4.size a
  h_S10000x4 : 0 < S10000x4.numel
  bcast_S_S50000x4 : S_.BroadcastsInDim S50000x4 (![] : Fin 0 → Fin S50000x4.rank)
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  scatter_S50000_S850000x1_S850000_n_0_0_1_wf : ScatterDims.WF S50000 S850000x1 S850000 [] [0] [0] 1
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x4_S10000x4_1_0_0_1_n_n_wf : DotDims.WF S10000x64 S64x4 S10000x4 [1] [0] [0] [1] [] []
  gather_S50000x4_S850000x1_S850000x4_1_0_n_n_0_1_14_wf : GatherDims.WF S50000x4 S850000x1 S850000x4 [1] [0] [] [0] [] 1 ![1, 4]
  scatter_S50000x4_S850000x1_S850000x4_1_0_0_1_wf : ScatterDims.WF S50000x4 S850000x1 S850000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S50000x1.size a
  hwx2_2 : ∀ i : grid2.Coords, EltTy.bits .f32 = 32 ∨ (Rect.block (s := S50000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x4.size a ≤ S64x4.size a
  hwx2_3 : ∀ i : grid2.Coords, EltTy.bits .f32 = 32 ∨ (Rect.block (s := S64x4) S64x4.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x4.size a ≤ S50000x4.size a
  hwx2_4 : ∀ i : grid2.Coords, EltTy.bits .f32 = 32 ∨ (Rect.block (s := S50000x4) S10000x4.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x4.size a ≤ S50000x4.size a
  hwx3_0 : ∀ i : grid3.Coords, EltTy.bits .f32 = 32 ∨ (Rect.block (s := S50000x4) S10000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x4.size a ≤ S50000x4.size a
  hwx3_3 : ∀ i : grid3.Coords, EltTy.bits .f32 = 32 ∨ (Rect.block (s := S50000x4) S10000x4.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf
def gather_S50000x4_S850000x1_S850000x4_1_0_n_n_0_1_14 : GatherDims S50000x4 S850000x1 S850000x4 where
  offsetDims := [1]
  collapsedSliceDims := [0]
  operandBatchingDims := []
  startIndicesBatchingDims := []
  startIndexMap := [0]
  indexVectorDim := 1
  sliceSizes := ![1, 4]
  wf := gather_S50000x4_S850000x1_S850000x4_1_0_n_n_0_1_14_wf
def scatter_S50000x4_S850000x1_S850000x4_1_0_0_1 : ScatterDims S50000x4 S850000x1 S850000x4 where
  updateWindowDims := [1]
  insertedWindowDims := [0]
  scatterDimsToOperandDims := [0]
  indexVectorDim := 1
  wf := scatter_S50000x4_S850000x1_S850000x4_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S10000x4.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S10000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S10000x4.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x4 : Shape := ⟨2, ![64, 4]⟩
abbrev S4 : Shape := ⟨1, ![4]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x4 : Shape := ⟨2, ![50000, 4]⟩
abbrev S850000x4 : Shape := ⟨2, ![850000, 4]⟩
abbrev S1x4 : Shape := ⟨2, ![1, 4]⟩

abbrev nBuf : Space → Nat
  | .hbm => 123
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S_, .f32⟩
  | .hbm, ⟨69, _⟩ => ⟨S50000x64, .f32⟩
  | .hbm, ⟨70, _⟩ => ⟨S50000x64, .i1⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x64, .f32⟩
  | .hbm, ⟨85, _⟩ => ⟨S850000x1, .f32⟩
  | .hbm, ⟨86, _⟩ => ⟨S850000x64, .f32⟩
  | .hbm, ⟨87, _⟩ => ⟨S850000x64, .f32⟩
  | .hbm, ⟨88, _⟩ => ⟨S_, .f32⟩
  | .hbm, ⟨89, _⟩ => ⟨S50000x64, .f32⟩
  | .hbm, ⟨90, _⟩ => ⟨S850000x1, .i32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S_, .f32⟩
  | .hbm, ⟨97, _⟩ => ⟨S50000x64, .f32⟩
  | .hbm, ⟨98, _⟩ => ⟨S50000x64, .i1⟩
  | .hbm, ⟨99, _⟩ => ⟨S_, .f32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S50000x4, .f32⟩
  | .hbm, ⟨104, _⟩ => ⟨S_, .i32⟩
  | .hbm, ⟨105, _⟩ => ⟨S850000, .i32⟩
  | .hbm, ⟨106, _⟩ => ⟨S850000, .i1⟩
  | .hbm, ⟨107, _⟩ => ⟨S_, .i32⟩
  | .hbm, ⟨108, _⟩ => ⟨S850000, .i32⟩
  | .hbm, ⟨109, _⟩ => ⟨S850000, .i32⟩
  | .hbm, ⟨110, _⟩ => ⟨S850000, .i32⟩
  | .hbm, ⟨111, _⟩ => ⟨S850000x1, .i32⟩
  | .hbm, ⟨112, _⟩ => ⟨S850000x4, .f32⟩
  | .hbm, ⟨113, _⟩ => ⟨S850000x1, .f32⟩
  | .hbm, ⟨114, _⟩ => ⟨S850000x4, .f32⟩
  | .hbm, ⟨115, _⟩ => ⟨S850000x4, .f32⟩
  | .hbm, ⟨116, _⟩ => ⟨S_, .f32⟩
  | .hbm, ⟨117, _⟩ => ⟨S50000x4, .f32⟩
  | .hbm, ⟨118, _⟩ => ⟨S850000x1, .i32⟩
  | .hbm, ⟨119, _⟩ => ⟨S50000x4, .f32⟩
  | .hbm, ⟨120, _⟩ => ⟨S1x4, .f32⟩
  | .hbm, ⟨121, _⟩ => ⟨S50000x4, .f32⟩
  | .hbm, ⟨122, _⟩ => ⟨S50000x4, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x4_0_1 : S850000x1.BroadcastsInDim S850000x4 (![0, 1] : Fin 2 → Fin S850000x4.rank)
  bcast_S_S50000x4 : S_.BroadcastsInDim S50000x4 (![] : Fin 0 → Fin S50000x4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x4_S50000x4_1_0_0_1_n_n_wf : DotDims.WF S50000x64 S64x4 S50000x4 [1] [0] [0] [1] [] []
  gather_S50000x4_S850000x1_S850000x4_1_0_n_n_0_1_14_wf : GatherDims.WF S50000x4 S850000x1 S850000x4 [1] [0] [] [0] [] 1 ![1, 4]
  scatter_S50000x4_S850000x1_S850000x4_1_0_0_1_wf : ScatterDims.WF S50000x4 S850000x1 S850000x4 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf
def gather_S50000x4_S850000x1_S850000x4_1_0_n_n_0_1_14 : GatherDims S50000x4 S850000x1 S850000x4 where
  offsetDims := [1]
  collapsedSliceDims := [0]
  operandBatchingDims := []
  startIndicesBatchingDims := []
  startIndexMap := [0]
  indexVectorDim := 1
  sliceSizes := ![1, 4]
  wf := gather_S50000x4_S850000x1_S850000x4_1_0_n_n_0_1_14_wf
def scatter_S50000x4_S850000x1_S850000x4_1_0_0_1 : ScatterDims S50000x4 S850000x1 S850000x4 where
  updateWindowDims := [1]
  insertedWindowDims := [0]
  scatterDimsToOperandDims := [0]
  indexVectorDim := 1
  wf := scatter_S50000x4_S850000x1_S850000x4_1_0_0_1_wf

class Facts : Prop extends Facts₀ where

variable [Facts]
-- ==== Proof.KerRun.lean ====
/-
  The kernel's run, keeping its result.

  The program is ten segments: stretches of host operations around four launches. After the last
  segment every buffer that outlives a launch holds the last boundary's contents, a fold of the
  segments over the launch memory. The frame reads only the eight argument arrays off that fold; here
  the result array is read off it as well, so that the run ends with the result at the fold's value
  and the arguments as launched.
-/
import proofs.«176285_j20882130993665_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result array at the
    last boundary's contents and the eight argument arrays as launched. -/
theorem run : θ_run defs (onTc (τ := τ) (main (F := F))) ⟨m, fun _ => 0, ρ⟩ (fun r => ∀ c : Dev nD,
      r.2.mem ((c.tc : Thread nD τ).loc main_v53) = W10 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v53 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KerRun

end
-- ==== Proof.KerHost.lean ====
/-
  The host operations around the four launches, read at the buffers the launches use.

  Before the first launch the program forms the two index vectors (each row of the edge list
  followed by 0 … 49999, the self loops), counts for every node the edges landing on it, takes the
  reciprocal square root of the count where it is positive and zero elsewhere, and reshapes that
  vector and the three bias vectors. Between launches it gathers the rows of the last result at
  the edges' sources (a negative index first moved up by the node count) and accumulates them into
  a zero array at the edges' destinations.
-/
import proofs.«176285_j20882130993665_1_alg».proof.Proof.Gen.KernelIdeal.Frame
import Idealize.ShloMosaic.Lib.StableHlo.Run

set_option maxRecDepth 16384

noncomputable section

namespace Cert.KernelIdeal.KerHost

open Cert.KernelIdeal Cert.KernelIdeal.Gen
open Idealize.ShloMosaic Idealize.ShloMosaic.TcCoe Idealize.SL.Sem Idealize.ShloMosaic.StableHlo

variable {F : FTy → Type} [FloatOps F]

/-- The edges' sources: row 0 of the edge list, then every node once. -/
def srcRaw (ei : IVec S2x800000 32) : IVec S850000 32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

/-- The edges' destinations: row 1 of the edge list, then every node once. -/
def dstRaw (ei : IVec S2x800000 32) : IVec S850000 32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

/-- An index vector as a column. -/
def col (v : IVec S850000 32) : IVec S850000x1 32 := broadcastInDim S850000x1 ![0] bcast_S850000_S850000x1_0 v

/-- A negative index moved up by the node count. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- For every node, the number of edges landing on it (a sum of ones into zero). -/
def deg (ei : IVec S2x800000 32) : FVec F S50000 .f32 :=
  Host.scatterAdd scatter_S50000_S850000x1_S850000_n_0_0_1 (broadcastInDim S50000 ![] bcast_S_S50000 (constant S_ .f32 0x00000000#32))
    (col (dstRaw ei)) (broadcastInDim S850000 ![] bcast_S_S850000 (constant S_ .f32 0x3F800000#32))

/-- The reciprocal square root of the count where it is positive, zero elsewhere. -/
def dinv (ei : IVec S2x800000 32) : FVec F S50000 .f32 :=
  select (cmpf .ogt (deg (F := F) ei) (broadcastInDim S50000 ![] bcast_S_S50000 (constant S_ .f32 0x00000000#32)))
    (Host.rsqrt (deg (F := F) ei)) (broadcastInDim S50000 ![] bcast_S_S50000 (constant S_ .f32 0x00000000#32))

/-- Rows of X gathered at the edges' sources and accumulated into zero at their destinations, 64 columns. -/
def agg64 (ei : IVec S2x800000 32) (X : FVec F S50000x64 .f32) : FVec F S50000x64 .f32 :=
  Host.scatterAdd scatter_S50000x64_S850000x1_S850000x64_1_0_0_1 (broadcastInDim S50000x64 ![] bcast_S_S50000x64 (constant S_ .f32 0x00000000#32))
    (col (dstRaw ei)) (Host.gather gather_S50000x64_S850000x1_S850000x64_1_0_n_n_0_1_164 X (col (wrap (srcRaw ei))))

/-- The same with 4 columns. -/
def agg4 (ei : IVec S2x800000 32) (X : FVec F S50000x4 .f32) : FVec F S50000x4 .f32 :=
  Host.scatterAdd scatter_S50000x4_S850000x1_S850000x4_1_0_0_1 (broadcastInDim S50000x4 ![] bcast_S_S50000x4 (constant S_ .f32 0x00000000#32))
    (col (dstRaw ei)) (Host.gather gather_S50000x4_S850000x1_S850000x4_1_0_n_n_0_1_14 X (col (wrap (srcRaw ei))))

variable (W : Valuation τ sig (Elt F))

/-! ## The stretch before the first launch -/

theorem pre_v5 : after (hostOps0 (F := F)) W (Proc.devRef .tc main_v5) = srcRaw (W (Proc.devRef .tc main_arg1)) := by
  unfold srcRaw; after_results <;> rfl
theorem pre_v6 : after (hostOps0 (F := F)) W (Proc.devRef .tc main_v6) = dstRaw (W (Proc.devRef .tc main_arg1)) := by
  unfold dstRaw; after_results <;> rfl
theorem pre_v12 : after (hostOps0 (F := F)) W (Proc.devRef .tc main_v12)
    = cmpf .ogt (deg (F := F) (W (Proc.devRef .tc main_arg1))) (broadcastInDim S50000 ![] bcast_S_S50000 (constant S_ .f32 0x00000000#32)) := by
  unfold deg col dstRaw; after_results <;> rfl
theorem pre_v13 : after (hostOps0 (F := F)) W (Proc.devRef .tc main_v13) = Host.rsqrt (deg (F := F) (W (Proc.devRef .tc main_arg1))) := by
  unfold deg col dstRaw; after_results <;> rfl
theorem pre_v14 : after (hostOps0 (F := F)) W (Proc.devRef .tc main_v14)
    = broadcastInDim S50000 ![] bcast_S_S50000 (constant S_ .f32 0x00000000#32) := by
  after_results <;> rfl

theorem where_v15 : after (hostOps0_1 (F := F)) W (Proc.devRef .tc main_v15)
    = select (W (Proc.devRef .tc main_v12)) (W (Proc.devRef .tc main_v13)) (W (Proc.devRef .tc main_v14)) := by
  after_results <;> rfl

theorem shp_v16 : after (hostOps0_2 (F := F)) W (Proc.devRef .tc main_v16) = shapeCast S50000x1 (W (Proc.devRef .tc main_v15)) shapeCasts_S50000_S50000x1 := by
  after_results <;> rfl
theorem shp_v17 : after (hostOps0_2 (F := F)) W (Proc.devRef .tc main_v17) = shapeCast S1x64 (W (Proc.devRef .tc main_arg3)) shapeCasts_S64_S1x64 := by
  after_results <;> rfl
theorem shp_v18 : after (hostOps0_2 (F := F)) W (Proc.devRef .tc main_v18) = shapeCast S1x64 (W (Proc.devRef .tc main_arg5)) shapeCasts_S64_S1x64 := by
  after_results <;> rfl
theorem shp_v19 : after (hostOps0_2 (F := F)) W (Proc.devRef .tc main_v19) = shapeCast S1x4 (W (Proc.devRef .tc main_arg7)) shapeCasts_S4_S1x4 := by
  after_results <;> rfl

/-! ## The stretches between launches, in terms of the index vectors the stretch finds -/

/-- Gather at wrapped sources, accumulate at raw destinations: as the stretch finds the index vectors. -/
def aggAt64 (src dst : IVec S850000 32) (X : FVec F S50000x64 .f32) : FVec F S50000x64 .f32 :=
  Host.scatterAdd scatter_S50000x64_S850000x1_S850000x64_1_0_0_1 (broadcastInDim S50000x64 ![] bcast_S_S50000x64 (constant S_ .f32 0x00000000#32))
    (col dst) (Host.gather gather_S50000x64_S850000x1_S850000x64_1_0_n_n_0_1_164 X (col (wrap src)))
def aggAt4 (src dst : IVec S850000 32) (X : FVec F S50000x4 .f32) : FVec F S50000x4 .f32 :=
  Host.scatterAdd scatter_S50000x4_S850000x1_S850000x4_1_0_0_1 (broadcastInDim S50000x4 ![] bcast_S_S50000x4 (constant S_ .f32 0x00000000#32))
    (col dst) (Host.gather gather_S50000x4_S850000x1_S850000x4_1_0_n_n_0_1_14 X (col (wrap src)))

theorem agg_v30 : after (hostOps1 (F := F)) W (Proc.devRef .tc main_v30)
    = aggAt64 (W (Proc.devRef .tc main_v5)) (W (Proc.devRef .tc main_v6)) (W (Proc.devRef .tc main_v20)) := by
  unfold aggAt64 col wrap; after_results <;> rfl
theorem agg_v41 : after (hostOps2 (F := F)) W (Proc.devRef .tc main_v41)
    = aggAt64 (W (Proc.devRef .tc main_v5)) (W (Proc.devRef .tc main_v6)) (W (Proc.devRef .tc main_v31)) := by
  unfold aggAt64 col wrap; after_results <;> rfl
theorem agg_v52 : after (hostOps3 (F := F)) W (Proc.devRef .tc main_v52)
    = aggAt4 (W (Proc.devRef .tc main_v5)) (W (Proc.devRef .tc main_v6)) (W (Proc.devRef .tc main_v42)) := by
  unfold aggAt4 col wrap; after_results <;> rfl

end Cert.KernelIdeal.KerHost

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibGcnLayer.lean ====
/-
  The pieces of a graph-convolution layer on the extended reals, entry by entry, and their
  behaviour on a block of rows.

  A layer scales every row of a matrix by that row's entry of a column, adds a bias row to every
  row, and applies the leaky rectifier entry by entry; between layers stands a matrix product. Each
  of these reads an entry (p, q) from row p of its matrix operands only, so computed on a block of
  rows it gives the rows of what it gives on the whole array.
-/
import proofs.«176285_j20882130993665_1_alg».proof.Proof.LibDense

noncomputable section

open scoped BigOperators

namespace Cert.GcnLayer

open Cert.Dense Idealize.ShloMosaic Idealize.ShloMosaic.ValueIdx

variable {M M' K N : ℕ}

/-- Every row of a matrix multiplied by that row's entry of a one-column matrix. -/
def scaleRows (d : Mat M 1) (X : Mat M N) : Mat M N := fun i => d (ix2 (i 0) (0 : Fin 1)) * X i

/-- A one-row matrix added to every row of a matrix. -/
def biasRows (b : Mat 1 N) (X : Mat M N) : Mat M N := fun i => X i + b (ix2 (0 : Fin 1) (i 1))

/-- The leaky rectifier with slope 0x3E4CCCCD (the single-precision word nearest 0.2) on one extended real:
    v where v ≥ 0 holds, the slope times v elsewhere. -/
def leakyE (v : EReal) : EReal :=
  Scalar.select (FloatOps.cmpf (F := Ideal) .oge v (FloatOps.ofBits (F := Ideal) .f32 0x00000000#32)) v
    (FloatOps.mulf (F := Ideal) (FloatOps.ofBits (F := Ideal) .f32 0x3E4CCCCD#32) v)

/-- The rectifier entry by entry. -/
def leaky (X : Mat M N) : Mat M N := fun i => leakyE (X i)

/-- What a layer hands to the next product: rows scaled, bias added, rectified. -/
def hidden (d : Mat M 1) (P : Mat M N) (b : Mat 1 N) : Mat M N := leaky (biasRows b (scaleRows d P))

theorem scaleRows_apply (d : Mat M 1) (X : Mat M N) (p : Fin M) (q : Fin N) :
    scaleRows d X (ix2 p q) = d (ix2 p (0 : Fin 1)) * X (ix2 p q) := rfl

theorem biasRows_apply (b : Mat 1 N) (X : Mat M N) (p : Fin M) (q : Fin N) :
    biasRows b X (ix2 p q) = X (ix2 p q) + b (ix2 (0 : Fin 1) q) := rfl

theorem hidden_apply (d : Mat M 1) (P : Mat M N) (b : Mat 1 N) (p : Fin M) (q : Fin N) :
    hidden d P b (ix2 p q) = leakyE (d (ix2 p (0 : Fin 1)) * P (ix2 p q) + b (ix2 (0 : Fin 1) q)) := rfl

/-! ## On a block of rows -/

/-- Scaled rows plus bias on a block of rows is the same on the whole array at those rows. -/
theorem biasRows_scaleRows_rows (D : Mat M' 1) (P : Mat M' N) (b : Mat 1 N) (d : Mat M 1) (blk : Mat M N) (b' : Mat 1 N)
    (ρ : Fin M → Fin M') (hD : ∀ p, d (ix2 p (0 : Fin 1)) = D (ix2 (ρ p) (0 : Fin 1)))
    (hP : ∀ p k, blk (ix2 p k) = P (ix2 (ρ p) k)) (hb : b' = b) (p : Fin M) (q : Fin N) :
    biasRows b' (scaleRows d blk) (ix2 p q) = biasRows b (scaleRows D P) (ix2 (ρ p) q) := by
  subst hb
  show d (ix2 p (0 : Fin 1)) * blk (ix2 p q) + b' (ix2 (0 : Fin 1) q)
    = D (ix2 (ρ p) (0 : Fin 1)) * P (ix2 (ρ p) q) + b' (ix2 (0 : Fin 1) q)
  rw [hD, hP]

/-- The hidden activation on a block of rows is the hidden activation of the whole array at those rows. -/
theorem hidden_rows (D : Mat M' 1) (P : Mat M' N) (b : Mat 1 N) (d : Mat M 1) (blk : Mat M N) (b' : Mat 1 N)
    (ρ : Fin M → Fin M') (hD : ∀ p, d (ix2 p (0 : Fin 1)) = D (ix2 (ρ p) (0 : Fin 1)))
    (hP : ∀ p k, blk (ix2 p k) = P (ix2 (ρ p) k)) (hb : b' = b) (p : Fin M) (q : Fin N) :
    hidden d blk b' (ix2 p q) = hidden D P b (ix2 (ρ p) q) :=
  congrArg leakyE (biasRows_scaleRows_rows D P b d blk b' ρ hD hP hb p q)

/-- A scaled product on a block of rows is the scaled product of the whole arrays at those rows. -/
theorem scaleRows_mm_rows (A : Mat M' K) (W : Mat K N) (D : Mat M' 1) (blk : Mat M K) (w : Mat K N) (d : Mat M 1)
    (ρ : Fin M → Fin M') (hA : ∀ p k, blk (ix2 p k) = A (ix2 (ρ p) k)) (hW : w = W)
    (hD : ∀ p, d (ix2 p (0 : Fin 1)) = D (ix2 (ρ p) (0 : Fin 1))) (p : Fin M) (q : Fin N) :
    scaleRows d (mm blk w) (ix2 p q) = scaleRows D (mm A W) (ix2 (ρ p) q) := by
  subst hW
  show d (ix2 p (0 : Fin 1)) * mm blk w (ix2 p q) = D (ix2 (ρ p) (0 : Fin 1)) * mm A w (ix2 (ρ p) q)
  rw [hD, mm_rows A blk w ρ hA p q]

end Cert.GcnLayer

end
-- ==== Proof.KerBlocks.lean ====
/-
  Facts shared by the four launches: each runs on a grid of five points, point t working on rows
  10000·t … 10000·t + 9999 of its row-blocked operands and on the whole of its small operands.
-/
import proofs.«176285_j20882130993665_1_alg».proof.Proof.Gen.KernelIdeal.Frame
import proofs.«176285_j20882130993665_1_alg».proof.Proof.LibGcnLayer

noncomputable section

namespace Cert.KernelIdeal.Blocks

open Cert.KernelIdeal Idealize.ShloMosaic

/-- A block read at zero offsets. -/
theorem hz : (![0, 0] : Fin 2 → Nat) = fun _ => 0 := funext fun a => by fin_cases a <;> rfl

/-- Row p of the block of 10000 rows that starts at row 10000·T, as a row of the 50000-row array. -/
def rowOf (T : ℕ) (hT : T < 5) (p : Fin 10000) : Fin 50000 := ⟨T * 10000 + p.val, by have := p.isLt; omega⟩

theorem rowOf_val (T : ℕ) (hT : T < 5) (p : Fin 10000) : (rowOf T hT p).val = T * 10000 + p.val := rfl

/-- The two matrix products of the launches are plain products: 10000×64 by 64×64, and 10000×64 by 64×4. -/
theorem dot64_eq : dot_S10000x64_S64x64_S10000x64_1_0_0_1_n_n = DotDims.plain 10000 64 64 := rfl
theorem dot4_eq : dot_S10000x64_S64x4_S10000x4_1_0_0_1_n_n = DotDims.plain 10000 64 4 := rfl

end Cert.KernelIdeal.Blocks

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«176285_j20882130993665_1_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibIndexed.lean ====
/-
  Rows taken and rows accumulated by run-time indices, entry by entry.

  Taking rows of a matrix by an integer column of indices reads, at result entry (r, c), the matrix at row
  "index r, read as a signed integer and clamped into the matrix's rows" and column c; taking entries of a
  flat array is the same without the column. Accumulating rows into a matrix by an integer column of indices
  adds update entry (r, c) to entry (index r, c) of the matrix when index r, read as a signed integer and NOT
  clamped, is one of the matrix's rows, and drops it otherwise; so on the extended reals every entry of the
  result is the entry it had plus the sum of the update entries whose index names its row.
-/
import Idealize.ShloMosaic.Lib.ValueIdx
import Idealize.ShloMosaic.Lib.Pipeline.Value
import Idealize.ShloMosaic.PureOps.Ideal.Laws

noncomputable section

open scoped BigOperators

namespace Cert.Indexed

open Idealize.ShloMosaic Idealize.ShloMosaic.ValueIdx

variable {α : Type}

/-- A word read as a signed integer and clamped into the rows 0 … N − 1. -/
def clampRow (N : Nat) (hN : 0 < N) {w : Nat} (v : BitVec w) : Fin N := ⟨min v.toInt.toNat (N - 1), by omega⟩

/-- A word, read as a signed integer and not clamped, names the row i. -/
def Names {N w : Nat} (v : BitVec w) (i : Fin N) : Prop := v.toInt = (i.val : ℤ)

instance {N w : Nat} (v : BitVec w) (i : Fin N) : Decidable (Names v i) := by unfold Names; infer_instance

/-! ## Taking entries of a flat array -/

/-- The dimension numbers of x[idx] for a flat array of N entries and a column of M indices. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry r of the taken array is the array at index r, clamped. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatGather N M wf) x idx y = x (ix1 (clampRow N hN (idx (ix2 (y 0) (0 : Fin 1))))) := by
  unfold Host.gather
  congr 1
  funext a
  obtain rfl : a = 0 := Subsingleton.elim _ _
  refine Fin.ext ?_
  show (flatGather N M wf).start y idx 0 + (flatGather N M wf).batchCoord y 0 + (flatGather N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx y ⟨List.idxOf (0 : Fin 1) (flatGather N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-! ## Taking rows of a matrix -/

/-- The dimension numbers of x[idx] for a matrix of N rows of C and a column of M indices. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry (r, c) of the taken rows is the matrix at row "index r, clamped" and column c. -/
theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather N C M wf) x idx y = x (ix2 (clampRow N hN (idx (ix2 (y 0) (0 : Fin 1)))) (y 1)) := by
  unfold Host.gather
  congr 1
  funext a
  refine Fin.ext ?_
  have key : ∀ a : Fin 2, (rowGather N C M wf).start y idx a + (rowGather N C M wf).batchCoord y a
      + (rowGather N C M wf).offCoord y a = ((ix2 (clampRow N hN (idx (ix2 (y 0) (0 : Fin 1)))) (y 1) :
        (⟨2, ![N, C]⟩ : Shape).Idx) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGather N C M wf).startIndexMap from List.mem_singleton.mpr rfl)]
      have hsi : (rowGather N C M wf).siIdx y ⟨List.idxOf (0 : Fin 2) (rowGather N C M wf).startIndexMap,
          List.idxOf_lt_length_iff.2 (List.mem_singleton.mpr rfl)⟩ = ix2 (y 0) (0 : Fin 1) := by
        funext b; refine Fin.ext ?_
        match b with
        | ⟨0, _⟩ => rfl
        | ⟨1, _⟩ => rfl
      rw [hsi]
      rfl
    · rw [GatherDims.batchCoord_eq_zero _ _ _ List.not_mem_nil]
      unfold GatherDims.start
      rw [dif_neg (show (1 : Fin 2) ∉ ([0] : List (Fin 2)) from by decide)]
      simp only [Nat.add_zero, Nat.zero_add]
      unfold GatherDims.offCoord
      rw [dif_pos ((GatherDims.mem_sKept (rowGather N C M wf) 1).mpr ⟨(show (1 : Fin 2) ∉ ([0] : List (Fin 2)) from by decide), List.not_mem_nil⟩)]
      rfl
  exact key a

/-! ## Sums over the entries of a column and of a matrix, by coordinates -/

/-- A flat index set is its one coordinate's range. -/
def idxEquiv1 {n : Nat} : (⟨1, ![n]⟩ : Shape).Idx ≃ Fin n where
  toFun i := i 0
  invFun r := ix1 r
  left_inv i := (eq_ix1 i).symm
  right_inv _ := rfl

/-- A sum over a flat index set is the sum over its coordinate. -/
theorem sum_idx1 {A : Type*} [AddCommMonoid A] {n : Nat} (f : (⟨1, ![n]⟩ : Shape).Idx → A) :
    ∑ i, f i = ∑ r : Fin n, f (ix1 r) := by
  rw [← Equiv.sum_comp (idxEquiv1 (n := n)).symm f]; rfl

/-- The flat entries whose coordinate satisfies P, summed: the sum over the coordinates that satisfy P. -/
theorem sum_filter_idx1 {A : Type*} [AddCommMonoid A] {n : Nat} (P : Fin n → Prop) [DecidablePred P]
    [DecidablePred fun j : (⟨1, ![n]⟩ : Shape).Idx => P (j 0)] (f : (⟨1, ![n]⟩ : Shape).Idx → A) :
    ∑ j ∈ Finset.univ.filter (fun j : (⟨1, ![n]⟩ : Shape).Idx => P (j 0)), f j
      = ∑ r ∈ Finset.univ.filter P, f (ix1 r) := by
  rw [Finset.sum_filter, Finset.sum_filter, sum_idx1]
  exact Finset.sum_congr rfl fun r _ => by congr

/-- The entries of a matrix in column c whose row satisfies P, summed: the sum over the rows that satisfy P. -/
theorem sum_filter_idx2 {A : Type*} [AddCommMonoid A] {n C : Nat} (P : Fin n → Prop) [DecidablePred P] (c : Fin C)
    [DecidablePred fun j : (⟨2, ![n, C]⟩ : Shape).Idx => P (j 0) ∧ (j 1).val = c.val] (f : (⟨2, ![n, C]⟩ : Shape).Idx → A) :
    ∑ j ∈ Finset.univ.filter (fun j : (⟨2, ![n, C]⟩ : Shape).Idx => P (j 0) ∧ (j 1).val = c.val), f j
      = ∑ r ∈ Finset.univ.filter P, f (ix2 r c) := by
  rw [Finset.sum_filter, Finset.sum_filter, sum_idx2]
  refine Finset.sum_congr rfl fun r _ => ?_
  have e : ∀ b : Fin C, (P ((ix2 r b : (⟨2, ![n, C]⟩ : Shape).Idx) 0)
      ∧ ((ix2 r b : (⟨2, ![n, C]⟩ : Shape).Idx) 1).val = c.val) ↔ (P r ∧ b = c) :=
    fun b => ⟨fun h => ⟨h.1, Fin.ext h.2⟩, fun h => ⟨h.1, congrArg Fin.val h.2⟩⟩
  simp only [e]
  by_cases hP : P r
  · simp [hP]
  · simp [hP]

/-! ## Accumulating entries into a flat array -/

/-- The dimension numbers of x.at[idx].add(u) for a flat array of N entries and a column of M indices. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update entry r lands on entry i exactly when index r names i. -/
theorem flatScatter_lands {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (flatScatter N M wf).resultIdx? j idx = some i ↔ Names (idx (ix2 (j 0) (0 : Fin 1))) (i 0) := by
  have hs : (flatScatter N M wf).start j idx 0 = (idx (ix2 (j 0) (0 : Fin 1))).toInt := by
    unfold ScatterDims.start
    rw [dif_pos (show (0 : Fin 1) ∈ ([0] : List (Fin 1)) from List.mem_singleton.mpr rfl)]
    have hsi : (flatScatter N M wf).siIdx j ⟨List.idxOf (0 : Fin 1) (flatScatter N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hw : (flatScatter N M wf).window j 0 = 0 := by
    unfold ScatterDims.window
    rw [dif_neg (by simp [ScatterDims.sKept, Shape.kept])]
  have hi : (i 0).val < N := (i 0).isLt
  have hsz : ((⟨1, ![N]⟩ : Shape).size 0 : ℤ) = (N : ℤ) := rfl
  unfold ScatterDims.resultIdx?
  split
  · rename_i h
    have h0 := h 0
    rw [hs, hw] at h0
    constructor
    · intro e
      have e0 : ((flatScatter N M wf).start j idx 0 + ((flatScatter N M wf).window j 0 : ℤ)).toNat = (i 0).val :=
        congrArg (fun f : (⟨1, ![N]⟩ : Shape).Idx => (f 0).val) (Option.some.inj e)
      rw [hs, hw] at e0
      unfold Names; omega
    · intro hn
      refine congrArg some (funext fun a => ?_)
      obtain rfl : a = 0 := Subsingleton.elim _ _
      refine Fin.ext ?_
      show ((flatScatter N M wf).start j idx 0 + ((flatScatter N M wf).window j 0 : ℤ)).toNat = (i 0).val
      rw [hs, hw]; unfold Names at hn; omega
  · rename_i h
    constructor
    · intro e; cases e
    · intro hn
      exfalso; apply h; intro a
      obtain rfl : a = 0 := Subsingleton.elim _ _
      rw [hs, hw, hsz]
      unfold Names at hn
      constructor <;> omega

/-- On the extended reals: entry i of the result is the entry it had plus the sum of the updates whose index names i. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (flatScatter N M wf) x idx upd i
      = x i + ∑ r ∈ Finset.univ.filter (fun r : Fin M => Names (idx (ix2 r (0 : Fin 1))) (i 0)), upd (ix1 r) := by
  unfold Ideal.hostScatterAdd
  congr 1
  rw [Finset.filter_congr (fun j _ => flatScatter_lands wf idx j i)]
  exact sum_filter_idx1 (fun r : Fin M => Names (idx (ix2 r (0 : Fin 1))) (i 0)) upd

/-! ## Accumulating rows into a matrix -/

/-- The dimension numbers of x.at[idx].add(u) for a matrix of N rows of C and a column of M indices. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (r, c) lands on entry (i, c') exactly when index r names i and c is c'. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowScatter N C M wf).resultIdx? j idx = some i
      ↔ Names (idx (ix2 (j 0) (0 : Fin 1))) (i 0) ∧ (j 1).val = (i 1).val := by
  have hs0 : (rowScatter N C M wf).start j idx 0 = (idx (ix2 (j 0) (0 : Fin 1))).toInt := by
    unfold ScatterDims.start
    rw [dif_pos (show (0 : Fin 2) ∈ ([0] : List (Fin 2)) from List.mem_singleton.mpr rfl)]
    have hsi : (rowScatter N C M wf).siIdx j ⟨List.idxOf (0 : Fin 2) (rowScatter N C M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hs1 : (rowScatter N C M wf).start j idx 1 = 0 := by
    unfold ScatterDims.start
    rw [dif_neg (show (1 : Fin 2) ∉ ([0] : List (Fin 2)) from by decide)]
  have hw0 : (rowScatter N C M wf).window j 0 = 0 := by
    unfold ScatterDims.window
    rw [dif_neg (by simp [ScatterDims.sKept, Shape.kept])]
  have hw1 : (rowScatter N C M wf).window j 1 = (j 1).val := by
    unfold ScatterDims.window
    rw [dif_pos (by simp [ScatterDims.sKept, Shape.kept])]
    rfl
  have hi0 : (i 0).val < N := idx2_lt0 i
  have hi1 : (i 1).val < C := idx2_lt1 i
  have hj1 : (j 1).val < C := idx2_lt1 j
  have hsz0 : ((⟨2, ![N, C]⟩ : Shape).size 0 : ℤ) = (N : ℤ) := rfl
  have hsz1 : ((⟨2, ![N, C]⟩ : Shape).size 1 : ℤ) = (C : ℤ) := rfl
  unfold ScatterDims.resultIdx?
  split
  · rename_i h
    have h0 := h 0
    have h1 := h 1
    rw [hs0, hw0] at h0
    rw [hs1, hw1] at h1
    constructor
    · intro e
      have e0 : ((rowScatter N C M wf).start j idx 0 + ((rowScatter N C M wf).window j 0 : ℤ)).toNat = (i 0).val :=
        congrArg (fun f : (⟨2, ![N, C]⟩ : Shape).Idx => (f 0).val) (Option.some.inj e)
      have e1 : ((rowScatter N C M wf).start j idx 1 + ((rowScatter N C M wf).window j 1 : ℤ)).toNat = (i 1).val :=
        congrArg (fun f : (⟨2, ![N, C]⟩ : Shape).Idx => (f 1).val) (Option.some.inj e)
      rw [hs0, hw0] at e0
      rw [hs1, hw1] at e1
      unfold Names; constructor <;> omega
    · rintro ⟨hn, hc⟩
      refine congrArg some (funext fun a => Fin.ext ?_)
      have key : ∀ a : Fin 2, ((rowScatter N C M wf).start j idx a + ((rowScatter N C M wf).window j a : ℤ)).toNat
          = (i a).val := by
        refine Fin.forall_fin_two.2 ⟨?_, ?_⟩
        · rw [hs0, hw0]; unfold Names at hn; omega
        · rw [hs1, hw1]; omega
      exact key a
  · rename_i h
    constructor
    · intro e; cases e
    · rintro ⟨hn, hc⟩
      exfalso; apply h
      unfold Names at hn
      refine Fin.forall_fin_two.2 ⟨?_, ?_⟩
      · rw [hs0, hw0, hsz0]; constructor <;> omega
      · rw [hs1, hw1, hsz1]; constructor <;> omega

/-- On the extended reals: entry (i, c) of the result is the entry it had plus the sum over the update rows whose index
    names i of their entry in column c. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (c : Fin C) :
    Ideal.hostScatterAdd (rowScatter N C M wf) x idx upd (ix2 p c)
      = x (ix2 p c) + ∑ r ∈ Finset.univ.filter (fun r : Fin M => Names (idx (ix2 r (0 : Fin 1))) p), upd (ix2 r c) := by
  unfold Ideal.hostScatterAdd
  congr 1
  rw [Finset.filter_congr (fun j _ => rowScatter_lands wf idx j (ix2 p c))]
  exact sum_filter_idx2 (fun r : Fin M => Names (idx (ix2 r (0 : Fin 1))) p) c upd

/-! ## The same readings at an entry named by its coordinates -/

/-- Entry r of the taken array, r a coordinate. -/
theorem flatGather_at {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (flatGather N M wf) x idx (ix1 r) = x (ix1 (clampRow N hN (idx (ix2 r (0 : Fin 1))))) :=
  flatGather_apply hN wf x idx (ix1 r)

/-- Entry (r, c) of the taken rows, r and c coordinates. -/
theorem rowGather_at {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowGather N C M wf) x idx (ix2 r c) = x (ix2 (clampRow N hN (idx (ix2 r (0 : Fin 1)))) c) :=
  rowGather_apply hN wf x idx (ix2 r c)

/-- Entry i of the accumulated flat array, i a coordinate. -/
theorem flatScatterAdd_at {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (flatScatter N M wf) x idx upd (ix1 i)
      = x (ix1 i) + ∑ r ∈ Finset.univ.filter (fun r : Fin M => Names (idx (ix2 r (0 : Fin 1))) i), upd (ix1 r) :=
  flatScatterAdd_apply wf x idx upd (ix1 i)

end Cert.Indexed

end
-- ==== Proof.LibGraphConv.lean ====
/-
  A segment sum of gathered, scaled rows commutes with a matrix product on the right — on the extended reals, for
  real entries.

  Rows of a matrix H are taken by a column of run-time indices, scaled row by row by a column of weights a, and added
  into the rows another index column names: entry (v, k) of the result is the sum over the messages e landing on v of
  a(e) · H(ρ(e), k). Multiplying the result by W on the right gives, at (v, o), the sum over k of those sums times
  W(k, o); doing the product first, on H, and the segment sum after gives the sum over the messages landing on v of
  a(e) · (sum over k of H(ρ(e), k) · W(k, o)). The two are equal by distributivity of the product over a finite sum
  and exchanging the two sums: true of real numbers, false at the infinities, so every entry of a, H and W is taken
  real and the sums are computed in the reals.

  Beside it: which extended reals are real numbers and which operations keep them so, and the broadcasts of a column
  read at an entry.
-/
import proofs.«176285_j20882130993665_1_alg».proof.Proof.LibMatAssoc
import proofs.«176285_j20882130993665_1_alg».proof.Proof.LibIndexed

noncomputable section

open scoped BigOperators

namespace Cert.GraphConv

open Cert.Dense Cert.Gcn Cert.Indexed Idealize.ShloMosaic Idealize.ShloMosaic.ValueIdx

/-! ## Real numbers among the extended reals -/

/-- An extended real that is a real number (neither infinity). -/
def IsReal (x : EReal) : Prop := ∃ r : ℝ, x = (r : EReal)

theorem isReal_zero : IsReal 0 := ⟨0, EReal.coe_zero.symm⟩
theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
/-- A power of a real base to a real exponent is real (the real power function is total). -/
theorem IsReal.pow {x y : EReal} (hx : IsReal x) (hy : IsReal y) : IsReal (Ideal.pow x y) := by
  obtain ⟨a, rfl⟩ := hx; obtain ⟨b, rfl⟩ := hy; exact ⟨Real.rpow a b, rfl⟩
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- An f32 word whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split
  · exact ⟨_, rfl⟩
  · exact ⟨_, rfl⟩

/-! ## Arrays of real entries -/

section Arrays
variable {s t : Shape}

theorem finite_of_forall {X : s.Idx → EReal} (h : ∀ i, IsReal (X i)) : Finite X := h
theorem Finite.isReal {X : s.Idx → EReal} (h : Finite X) (i : s.Idx) : IsReal (X i) := h i

theorem finite_mulf {φ : FTy} {x y : FVec Ideal s φ} (hx : Finite x) (hy : Finite y) : Finite (mulf x y) :=
  fun i => IsReal.mul (hx i) (hy i)
theorem finite_addf {φ : FTy} {x y : FVec Ideal s φ} (hx : Finite x) (hy : Finite y) : Finite (addf x y) :=
  fun i => IsReal.add (hx i) (hy i)
theorem finite_subf {φ : FTy} {x y : FVec Ideal s φ} (hx : Finite x) (hy : Finite y) : Finite (subf x y) :=
  fun i => IsReal.sub (hx i) (hy i)
theorem finite_maximumf {φ : FTy} {x y : FVec Ideal s φ} (hx : Finite x) (hy : Finite y) : Finite (maximumf x y) :=
  fun i => IsReal.max (hx i) (hy i)
theorem finite_hostNegf {φ : FTy} {x : FVec Ideal s φ} (hx : Finite x) : Finite (Host.negf x) :=
  fun i => IsReal.neg (hx i)
theorem finite_hostPowf {φ : FTy} {x y : FVec Ideal s φ} (hx : Finite x) (hy : Finite y) : Finite (Host.powf x y) :=
  fun i => IsReal.pow (hx i) (hy i)
theorem finite_uitofp {φ : FTy} {w : ℕ} (x : IVec s w) : Finite (uitofp (F := Ideal) φ x) :=
  fun i => ⟨_, rfl⟩
theorem finite_constant_f32 (b : BitVec 32) (h : (b.extractLsb' 23 8).toNat ≠ 2 ^ 8 - 1) :
    Finite (constant (F := Ideal) s .f32 b) := fun _ => isReal_ofBits_f32 b h
theorem finite_broadcast (x : EReal) (hx : IsReal x) : Finite (broadcast s x) := fun _ => hx

/-- A layout operation, a broadcast or a gather reads its operand at some index: real entries stay real. -/
theorem finite_broadcastInDim {dims : Fin s.rank → Fin t.rank} (h : s.BroadcastsInDim t dims) {x : s.Idx → EReal}
    (hx : Finite x) : Finite (broadcastInDim t dims h x) := fun _ => hx _
theorem finite_broadcastTo (h : s.Broadcasts t) {x : s.Idx → EReal} (hx : Finite x) : Finite (broadcastTo t x h) :=
  fun _ => hx _
theorem finite_shapeCast (h : s.ShapeCasts t) {x : s.Idx → EReal} (hx : Finite x) : Finite (shapeCast t x h) :=
  fun _ => hx _
theorem finite_gather {si : Shape} {w : ℕ} (d : GatherDims s si t) {x : s.Idx → EReal} (idx : IVec si w)
    (hx : Finite x) : Finite (Host.gather d x idx) := fun _ => hx _
/-- A scatter-add adds finitely many of the updates to each entry. -/
theorem finite_scatterAdd {si su : Shape} {w : ℕ} (d : ScatterDims s si su) {x : s.Idx → EReal} (idx : IVec si w)
    {upd : su.Idx → EReal} (hx : Finite x) (hu : Finite upd) :
    Finite (Host.scatterAdd (F := Ideal) (φ := .f32) d x idx upd) := by
  intro i
  show IsReal (Ideal.hostScatterAdd d x idx upd i)
  unfold Ideal.hostScatterAdd
  exact IsReal.add (hx i) (IsReal.sum _ _ fun j _ => hu j)

end Arrays

/-- A matrix product of real entries has real entries. -/
theorem finite_mm {M K N : ℕ} {A : Mat M K} {W : Mat K N} (hA : Finite A) (hW : Finite W) : Finite (mm A W) :=
  fun i => IsReal.sum _ _ fun k _ => IsReal.mul (hA _) (hW _)
theorem finite_affine2 {M K N : ℕ} {A : Mat M K} {W : Mat K N} {b : Mat 1 N} (hA : Finite A) (hW : Finite W)
    (hb : Finite b) : Finite (affine2 A W b) := fun i => IsReal.add (finite_mm hA hW i) (hb _)
theorem finite_relu {M N : ℕ} {X : Mat M N} (hX : Finite X) : Finite (relu X) := fun i => IsReal.max (hX i) isReal_zero

/-! ## Broadcasts of a column, read at an entry -/

section Bcast
variable {α : Type}

/-- A scalar broadcast to any shape reads the scalar. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A flat array of M entries as an M×1 column. -/
theorem bcast_col_apply {M : ℕ} (h : (⟨1, ![M]⟩ : Shape).BroadcastsInDim ⟨2, ![M, 1]⟩ ![0])
    (x : (⟨1, ![M]⟩ : Shape).Idx → α) (e : Fin M) (z : Fin 1) :
    broadcastInDim ⟨2, ![M, 1]⟩ ![0] h x (ix2 e z) = x (ix1 e) :=
  broadcastInDim_apply ![0] h x (ix2 e z) (ix1 e) (fun ax => by
    match ax with
    | ⟨0, _⟩ =>
      show e.val = if M = 1 then 0 else e.val
      split
      · have := e.isLt; omega
      · rfl)

/-- An M×1 column repeated over C columns. -/
theorem bcast_cols_apply {M C : ℕ} (h : (⟨2, ![M, 1]⟩ : Shape).BroadcastsInDim ⟨2, ![M, C]⟩ ![0, 1])
    (x : (⟨2, ![M, 1]⟩ : Shape).Idx → α) (e : Fin M) (c : Fin C) :
    broadcastInDim ⟨2, ![M, C]⟩ ![0, 1] h x (ix2 e c) = x (ix2 e (0 : Fin 1)) :=
  broadcastInDim_apply ![0, 1] h x (ix2 e c) (ix2 e (0 : Fin 1)) (fun ax => by
    match ax with
    | ⟨0, _⟩ =>
      show e.val = if M = 1 then 0 else e.val
      split
      · have := e.isLt; omega
      · rfl
    | ⟨1, _⟩ => rfl)

/-- The vector unit's broadcast of an A×1 column over B columns. -/
theorem broadcastTo_col_apply {A B : ℕ} (x : (⟨2, ![A, 1]⟩ : Shape).Idx → α)
    (h : (⟨2, ![A, 1]⟩ : Shape).Broadcasts ⟨2, ![A, B]⟩) (p : Fin A) (q : Fin B) :
    broadcastTo ⟨2, ![A, B]⟩ x h (ix2 p q) = x (ix2 p (0 : Fin 1)) := by
  refine broadcastTo_apply x h (ix2 p q) (ix2 p (0 : Fin 1)) fun ax => ?_
  match ax with
  | ⟨0, _⟩ =>
    show p.val = if A = 1 then 0 else p.val
    split
    · have := p.isLt; omega
    · rfl
  | ⟨1, _⟩ => rfl

end Bcast

/-! ## The linear step -/

/-- In the reals: a weighted sum of rows times a column is the weighted sum of the rows' products with the column. -/
theorem real_lin {ι : Type} {K : ℕ} (L : Finset ι) (a : ι → ℝ) (h : ι → Fin K → ℝ) (w : Fin K → ℝ) :
    ∑ k : Fin K, (∑ e ∈ L, a e * h e k) * w k = ∑ e ∈ L, a e * ∑ k : Fin K, h e k * w k := by
  simp_rw [Finset.sum_mul, Finset.mul_sum]
  rw [Finset.sum_comm]
  exact Finset.sum_congr rfl fun e _ => Finset.sum_congr rfl fun k _ => by ring

/-- The same on the extended reals, every entry real: the zero the segment sum starts from and the zero bias the
    early product adds are absorbed. -/
theorem segment_lin {M N K O : ℕ} (L : Finset (Fin M)) (a : Fin M → EReal) (r : Fin M → Fin N) (H : Mat N K) (W : Mat K O)
    (o : Fin O) (ha : ∀ e, IsReal (a e)) (hH : Finite H) (hW : Finite W) :
    0 + ∑ e ∈ L, a e * (∑ k : Fin K, H (ix2 (r e) k) * W (ix2 k o) + 0)
      = ∑ k : Fin K, (0 + ∑ e ∈ L, a e * H (ix2 (r e) k)) * W (ix2 k o) := by
  choose a' ha' using ha
  choose h' hh' using hH
  choose w' hw' using hW
  have hl : 0 + ∑ e ∈ L, a e * (∑ k : Fin K, H (ix2 (r e) k) * W (ix2 k o) + 0)
      = ((∑ e ∈ L, a' e * ∑ k : Fin K, h' (ix2 (r e) k) * w' (ix2 k o) : ℝ) : EReal) := by
    rw [zero_add, coe_sum]
    refine Finset.sum_congr rfl fun e _ => ?_
    rw [add_zero, EReal.coe_mul, coe_sum, ha']
    refine congrArg ((a' e : EReal) * ·) (Finset.sum_congr rfl fun k _ => ?_)
    rw [EReal.coe_mul, hh', hw']
  have hr : ∑ k : Fin K, (0 + ∑ e ∈ L, a e * H (ix2 (r e) k)) * W (ix2 k o)
      = ((∑ k : Fin K, (∑ e ∈ L, a' e * h' (ix2 (r e) k)) * w' (ix2 k o) : ℝ) : EReal) := by
    rw [coe_sum]
    refine Finset.sum_congr rfl fun k _ => ?_
    rw [zero_add, EReal.coe_mul, coe_sum, hw']
    refine congrArg (· * (w' (ix2 k o) : EReal)) (Finset.sum_congr rfl fun e _ => ?_)
    rw [EReal.coe_mul, ha', hh']
  rw [hl, hr]
  exact congrArg _ (real_lin L a' (fun e k => h' (ix2 (r e) k)) (fun k => w' (ix2 k o))).symm

/-- THE LINEAR STEP, at the operations: gathering rows of H · W (a product with a zero bias row), scaling them and
    segment-summing is the segment sum of the scaled gathered rows of H, times W — for real weights and entries. -/
theorem scatter_gather_mm {N M K O w : ℕ} (hN : 0 < N)
    (wfSO : ScatterDims.WF ⟨2, ![N, O]⟩ ⟨2, ![M, 1]⟩ ⟨2, ![M, O]⟩ [1] [0] [0] 1)
    (wfSK : ScatterDims.WF ⟨2, ![N, K]⟩ ⟨2, ![M, 1]⟩ ⟨2, ![M, K]⟩ [1] [0] [0] 1)
    (wfGO : GatherDims.WF ⟨2, ![N, O]⟩ ⟨2, ![M, 1]⟩ ⟨2, ![M, O]⟩ [1] [0] [] [0] [] 1 ![1, O])
    (wfGK : GatherDims.WF ⟨2, ![N, K]⟩ ⟨2, ![M, 1]⟩ ⟨2, ![M, K]⟩ [1] [0] [] [0] [] 1 ![1, K])
    (hbO : (⟨2, ![M, 1]⟩ : Shape).BroadcastsInDim ⟨2, ![M, O]⟩ ![0, 1])
    (hbK : (⟨2, ![M, 1]⟩ : Shape).BroadcastsInDim ⟨2, ![M, K]⟩ ![0, 1])
    (zO : Mat N O) (zK : Mat N K) (hzO : ∀ i, zO i = 0) (hzK : ∀ i, zK i = 0)
    (colc rown : IVec ⟨2, ![M, 1]⟩ w) (a : (⟨2, ![M, 1]⟩ : Shape).Idx → EReal)
    (H : Mat N K) (W : Mat K O) (zb : Mat 1 O) (hzb : ∀ q, zb (ix2 (0 : Fin 1) q) = 0)
    (ha : Finite a) (hH : Finite H) (hW : Finite W) :
    Host.scatterAdd (F := Ideal) (φ := .f32) (rowScatter N O M wfSO) zO colc
        (mulf (F := Ideal) (φ := .f32) (broadcastInDim ⟨2, ![M, O]⟩ ![0, 1] hbO a)
          (Host.gather (rowGather N O M wfGO) (affine2 H W zb) rown))
      = mm (Host.scatterAdd (F := Ideal) (φ := .f32) (rowScatter N K M wfSK) zK colc
          (mulf (F := Ideal) (φ := .f32) (broadcastInDim ⟨2, ![M, K]⟩ ![0, 1] hbK a)
            (Host.gather (rowGather N K M wfGK) H rown))) W := by
  funext i
  obtain ⟨v, o, rfl⟩ : ∃ (v : Fin N) (o : Fin O), i = ix2 v o := ⟨i 0, i 1, eq_ix2 i⟩
  have hL : Host.scatterAdd (F := Ideal) (φ := .f32) (rowScatter N O M wfSO) zO colc
        (mulf (F := Ideal) (φ := .f32) (broadcastInDim ⟨2, ![M, O]⟩ ![0, 1] hbO a)
          (Host.gather (rowGather N O M wfGO) (affine2 H W zb) rown)) (ix2 v o)
      = 0 + ∑ e ∈ Finset.univ.filter (fun e : Fin M => Names (colc (ix2 e (0 : Fin 1))) v),
          a (ix2 e (0 : Fin 1)) * (∑ k : Fin K, H (ix2 (clampRow N hN (rown (ix2 e (0 : Fin 1)))) k) * W (ix2 k o) + 0) := by
    refine (rowScatterAdd_apply wfSO zO colc _ v o).trans ?_
    rw [hzO]
    refine congrArg (0 + ·) (Finset.sum_congr rfl fun e _ => ?_)
    show broadcastInDim ⟨2, ![M, O]⟩ ![0, 1] hbO a (ix2 e o) * Host.gather (rowGather N O M wfGO) (affine2 H W zb) rown (ix2 e o) = _
    rw [bcast_cols_apply, rowGather_at hN]
    show _ * (mm H W (ix2 (clampRow N hN (rown (ix2 e (0 : Fin 1)))) o) + zb (ix2 (0 : Fin 1) o)) = _
    rw [hzb]
    rfl
  have hR : ∀ k : Fin K, Host.scatterAdd (F := Ideal) (φ := .f32) (rowScatter N K M wfSK) zK colc
        (mulf (F := Ideal) (φ := .f32) (broadcastInDim ⟨2, ![M, K]⟩ ![0, 1] hbK a)
          (Host.gather (rowGather N K M wfGK) H rown)) (ix2 v k)
      = 0 + ∑ e ∈ Finset.univ.filter (fun e : Fin M => Names (colc (ix2 e (0 : Fin 1))) v),
          a (ix2 e (0 : Fin 1)) * H (ix2 (clampRow N hN (rown (ix2 e (0 : Fin 1)))) k) := by
    intro k
    refine (rowScatterAdd_apply wfSK zK colc _ v k).trans ?_
    rw [hzK]
    refine congrArg (0 + ·) (Finset.sum_congr rfl fun e _ => ?_)
    show broadcastInDim ⟨2, ![M, K]⟩ ![0, 1] hbK a (ix2 e k) * Host.gather (rowGather N K M wfGK) H rown (ix2 e k) = _
    rw [bcast_cols_apply, rowGather_at hN]
  have key : ∀ X : Mat N K, mm X W (ix2 v o) = ∑ k : Fin K, X (ix2 v k) * W (ix2 k o) := fun X => rfl
  rw [hL, key]
  refine (segment_lin _ (fun e => a (ix2 e (0 : Fin 1))) (fun e => clampRow N hN (rown (ix2 e (0 : Fin 1)))) H W o
    (fun e => ha _) hH hW).trans ?_
  exact Finset.sum_congr rfl fun k _ => congrArg (· * W (ix2 k o)) (hR k).symm

end Cert.GraphConv

end
-- ==== Proof.Reg0.lean ====
/-
  The first launch: every row of x·W scaled by the column d.

  At grid point t the body loads rows 10000·t … of x and of d and the whole of W, forms the product
  into a zero accumulator, scales row p by d(p), and stores the block; the blocks tile the result, so
  after the launch the result array is the scaled product of the arrays the launch found.
-/
import proofs.«176285_j20882130993665_1_alg».proof.Proof.KerBlocks
import proofs.«176285_j20882130993665_1_alg».proof.Proof.LibGraphConv
import Idealize.ShloMosaic.Lib.Pipeline.Value
import Idealize.ShloMosaic.Lib.Tactic

set_option maxRecDepth 16384

noncomputable section

open scoped BigOperators

namespace Cert.KernelIdeal.Reg0

open Cert.KernelIdeal Cert.KernelIdeal.Gen Cert.KernelIdeal.Blocks Cert.Dense Cert.GcnLayer Cert.GraphConv
open Idealize.ShloMosaic Idealize.ShloMosaic.TcCoe Idealize.ShloMosaic.ValueIdx Idealize.SL.Sem
open Idealize.ShloMosaic.Pipeline (Dat)

/-- The body's stored value, from its three loads: the product with its rows scaled. -/
theorem pay0_eq (x0 : Vec Ideal S10000x64 .f32) (x1 : Vec Ideal S64x64 .f32) (x2 : Vec Ideal S10000x1 .f32) :
    k0_pay1 x0 x1 x2 = scaleRows x2 (mm x0 x1) := by
  unfold k0_pay1
  funext i
  obtain ⟨p, q, rfl⟩ : ∃ (p : Fin 10000) (q : Fin 64), i = ix2 p q := ⟨i 0, i 1, eq_ix2 i⟩
  show broadcastTo S10000x64 (shapeCast S10000x1 x2 shapeCasts_S10000x1_S10000x1) broadcasts_S10000x1_S10000x64 (ix2 p q)
      * matmul dot_S10000x64_S64x64_S10000x64_1_0_0_1_n_n none (truncf .bf16 x0 bitsLt_bf16_f32) (truncf .bf16 x1 bitsLt_bf16_f32) (constant (F := Ideal) S10000x64 .f32 0x00000000#32) (ix2 p q)
    = x2 (ix2 p (0 : Fin 1)) * mm x0 x1 (ix2 p q)
  rw [shapeCast_self, broadcastTo_col_apply, dot64_eq, truncf_id, truncf_id, matmul_plain_zero]

variable (V : (c : Dev nD) → (b : Ref sig .tc) → Buf (Elt Ideal) ((c : Thread nD τ).loc b))

/-- The block indices at point t: row-blocked operands at (t, 0), whole operands at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem tlt (t : Fin cfg0.N) : t.val < 5 := by
  have h : cfg0.N = 5 := N_0
  have := t.isLt
  omega

/-- Window 0's block at point t is rows 10000·t … of the first operand. -/
theorem rd0 (c : Dev nD) (t : Fin cfg0.N) (p : Fin 10000) (k : Fin 64) :
    iblk0 V c 0 t (ix2 p k) = V c main_arg0 (ix2 (rowOf t.val (tlt t) p) k) := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- Window 1's block at every point is the whole second operand. -/
theorem rd1 (c : Dev nD) (t : Fin cfg0.N) : iblk0 V c 1 t = V c main_arg2 := by
  obtain ⟨-, -, e0, e1, -⟩ := idx0 t
  funext y
  unfold iblk0
  rw [View.read_apply]
  show V c main_arg2 _ = V c main_arg2 _
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- Window 2's block at point t is rows 10000·t … of the column. -/
theorem rd2 (c : Dev nD) (t : Fin cfg0.N) (p : Fin 10000) :
    iblk0 V c 2 t (ix2 p (0 : Fin 1)) = V c main_v16 (ix2 (rowOf t.val (tlt t) p) (0 : Fin 1)) := by
  obtain ⟨-, -, -, -, e0, e1, -⟩ := idx0 t
  unfold iblk0
  rw [View.read_apply]
  show V c main_v16 _ = V c main_v16 _
  refine congrArg _ (funext fun a => Fin.ext ?_)
  match a with
  | ⟨0, _⟩ => show win0_2.index t (0 : Fin 2) * 10000 + 1 * p.val = t.val * 10000 + p.val; rw [e0]; omega
  | ⟨1, _⟩ => show win0_2.index t (1 : Fin 2) * 1 + 1 * 0 = 0; rw [e1]

/-- What point t writes back is block t of the scaled product of the whole arrays. -/
theorem flushed0 (c : Dev nD) (t : Fin cfg0.N) :
    (dat0 V c).flushed 3 t = ((cfg0.win 3).blk t).view.read (Elt Ideal)
      (scaleRows (V c main_v16) (mm (V c main_arg0) (V c main_arg2))) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S10000x1) hz]
  rw [pay0_eq]
  funext j
  obtain ⟨p, q, rfl⟩ : ∃ (p : Fin 10000) (q : Fin 64), j = ix2 p q := ⟨j 0, j 1, eq_ix2 j⟩
  obtain ⟨-, -, -, -, -, -, e0, e1⟩ := idx0 t
  have hE : ((cfg0.win 3).blk t).view.emb (ix2 p q) = (ix2 (rowOf t.val (tlt t) p) q : S50000x64.Idx) := by
    funext a; apply Fin.ext
    match a with
    | ⟨0, _⟩ => show win0_3.index t (0 : Fin 2) * 10000 + 1 * p.val = t.val * 10000 + p.val; rw [e0]; omega
    | ⟨1, _⟩ => show win0_3.index t (1 : Fin 2) * 64 + 1 * q.val = q.val; rw [e1]; omega
  show scaleRows (iblk0 V c 2 t) (mm (iblk0 V c 0 t) (iblk0 V c 1 t)) (ix2 p q)
    = scaleRows (V c main_v16) (mm (V c main_arg0) (V c main_arg2)) (((cfg0.win 3).blk t).view.emb (ix2 p q))
  rw [hE]
  exact scaleRows_mm_rows (V c main_arg0) (V c main_arg2) (V c main_v16) (iblk0 V c 0 t) (iblk0 V c 1 t) (iblk0 V c 2 t)
    (rowOf t.val (tlt t)) (rd0 V c t) (rd1 V c t) (rd2 V c t) p q

/-- Every entry of the result array lies in the block of the point that holds its row. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 5 := N_0
  let t : Fin cfg0.N := ⟨(i 0).val / 10000, by omega⟩
  obtain ⟨-, -, -, -, -, -, e0, e1⟩ := idx0 t
  refine ⟨t, flush0_3 t, ?_⟩
  show i ∈ ((View.whole main_v20).slice (win0_3.rect t)).set
  rw [View.set_slice_whole, Rect.mem_set_unit]
  intro a
  match a with
  | ⟨0, _⟩ => show win0_3.index t (0 : Fin 2) * 10000 ≤ (i 0).val ∧ (i 0).val < win0_3.index t (0 : Fin 2) * 10000 + 10000
              rw [e0]; show (i 0).val / 10000 * 10000 ≤ (i 0).val ∧ (i 0).val < (i 0).val / 10000 * 10000 + 10000; omega
  | ⟨1, _⟩ => show win0_3.index t (1 : Fin 2) * 64 ≤ (i 1).val ∧ (i 1).val < win0_3.index t (1 : Fin 2) * 64 + 64
              rw [e1]; omega

/-- After the launch the result array holds the scaled product of the arrays the launch found. -/
theorem final0 (c : Dev nD) :
    (dat0 V c).arrAt 3 cfg0.N = scaleRows (V c main_v16) (mm (V c main_arg0) (V c main_arg2)) :=
  (dat0 V c).arrAt_eq_of_cover 3 _ (fun t _ => flushed0 V c t) cover0

end Cert.KernelIdeal.Reg0

end
-- ==== Proof.Reg1.lean ====
/-
  The first middle launch: rows scaled and biased, rectified, multiplied by the weights, rows scaled again.

  At grid point t the body loads rows 10000·t … of the aggregated array P and of the column d, the
  whole bias row b and the whole weight matrix W; it forms d(p)·P(p, ·) + b, applies the leaky
  rectifier, multiplies by W into a zero accumulator, scales row p by d(p) and stores the block. The
  blocks tile the result, so after the launch the result array is that function of the arrays the
  launch found.
-/
import proofs.«176285_j20882130993665_1_alg».proof.Proof.KerBlocks
import proofs.«176285_j20882130993665_1_alg».proof.Proof.LibGraphConv
import Idealize.ShloMosaic.Lib.Pipeline.Value
import Idealize.ShloMosaic.Lib.Tactic

set_option maxRecDepth 16384

noncomputable section

open scoped BigOperators

namespace Cert.KernelIdeal.Reg1

open Cert.KernelIdeal Cert.KernelIdeal.Gen Cert.KernelIdeal.Blocks Cert.Dense Cert.GcnLayer Cert.GraphConv
open Idealize.ShloMosaic Idealize.ShloMosaic.TcCoe Idealize.ShloMosaic.ValueIdx Idealize.SL.Sem
open Idealize.ShloMosaic.Pipeline (Dat)

/-- The body's stored value, from its loads (the column is loaded twice): the hidden activation's
    product with the weights, rows scaled. -/
theorem pay1_eq (v0 v19 : Vec Ideal S10000x1 .f32) (v2 : Vec Ideal S10000x64 .f32) (v6 : Vec Ideal S1x64 .f32)
    (v16 : Vec Ideal S64x64 .f32) :
    k1_pay1 v0 v2 v6 v16 v19 = scaleRows v19 (mm (hidden v0 v2 v6) v16) := by
  unfold k1_pay1
  funext i
  obtain ⟨p, q, rfl⟩ : ∃ (p : Fin 10000) (q : Fin 64), i = ix2 p q := ⟨i 0, i 1, eq_ix2 i⟩
  show broadcastTo S10000x64 (shapeCast S10000x1 v19 shapeCasts_S10000x1_S10000x1) broadcasts_S10000x1_S10000x64 (ix2 p q)
      * matmul dot_S10000x64_S64x64_S10000x64_1_0_0_1_n_n none (truncf .bf16 _ bitsLt_bf16_f32) (truncf .bf16 v16 bitsLt_bf16_f32) (constant (F := Ideal) S10000x64 .f32 0x00000000#32) (ix2 p q)
    = v19 (ix2 p (0 : Fin 1)) * mm (hidden v0 v2 v6) v16 (ix2 p q)
  rw [shapeCast_self, broadcastTo_col_apply, dot64_eq, truncf_id, truncf_id, matmul_plain_zero]
  refine congrArg _ (congrFun (congrArg (fun A => mm A v16) ?_) _)
  funext i'
  obtain ⟨p', q', rfl⟩ : ∃ (p' : Fin 10000) (q' : Fin 64), i' = ix2 p' q' := ⟨i' 0, i' 1, eq_ix2 i'⟩
  show leakyE (broadcastTo S10000x64 (shapeCast S10000x1 v0 shapeCasts_S10000x1_S10000x1) broadcasts_S10000x1_S10000x64 (ix2 p' q')
        * shapeCast S10000x64 v2 shapeCasts_S10000x64_S10000x64 (ix2 p' q')
      + broadcastTo S10000x64 (shapeCast S1x64 v6 shapeCasts_S1x64_S1x64) broadcasts_S1x64_S10000x64 (ix2 p' q'))
    = leakyE (v0 (ix2 p' (0 : Fin 1)) * v2 (ix2 p' q') + v6 (ix2 (0 : Fin 1) q'))
  rw [shapeCast_self, shapeCast_self, shapeCast_self, broadcastTo_col_apply, broadcastTo_1b_ab_apply]

variable (V : (c : Dev nD) → (b : Ref sig .tc) → Buf (Elt Ideal) ((c : Thread nD τ).loc b))

/-- The block indices at point t: row-blocked operands at (t, 0), whole operands at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem tlt (t : Fin cfg1.N) : t.val < 5 := by
  have h : cfg1.N = 5 := N_1
  have := t.isLt
  omega

/-- Window 0's block at point t is rows 10000·t … of the aggregated array. -/
theorem rd0 (c : Dev nD) (t : Fin cfg1.N) (p : Fin 10000) (k : Fin 64) :
    iblk1 V c 0 t (ix2 p k) = V c main_v30 (ix2 (rowOf t.val (tlt t) p) k) := by
  obtain ⟨e0, e1, -⟩ := idx1 t
  unfold iblk1
  rw [View.read_apply]
  show V c main_v30 _ = V c main_v30 _
  refine congrArg _ (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- Window 1's block at every point is the whole bias row. -/
theorem rd1 (c : Dev nD) (t : Fin cfg1.N) : iblk1 V c 1 t = V c main_v17 := by
  obtain ⟨-, -, e0, e1, -⟩ := idx1 t
  funext y
  unfold iblk1
  rw [View.read_apply]
  show V c main_v17 _ = V c main_v17 _
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 64 + 1 * (y 1).val = (y 1).val; rw [e1]; omega

/-- Window 2's block at point t is rows 10000·t … of the column. -/
theorem rd2 (c : Dev nD) (t : Fin cfg1.N) (p : Fin 10000) :
    iblk1 V c 2 t (ix2 p (0 : Fin 1)) = V c main_v16 (ix2 (rowOf t.val (tlt t) p) (0 : Fin 1)) := by
  obtain ⟨-, -, -, -, e0, e1, -⟩ := idx1 t
  unfold iblk1
  rw [View.read_apply]
  show V c main_v16 _ = V c main_v16 _
  refine congrArg _ (funext fun a => Fin.ext ?_)
  match a with
  | ⟨0, _⟩ => show win1_2.index t (0 : Fin 2) * 10000 + 1 * p.val = t.val * 10000 + p.val; rw [e0]; omega
  | ⟨1, _⟩ => show win1_2.index t (1 : Fin 2) * 1 + 1 * 0 = 0; rw [e1]

/-- Window 3's block at every point is the whole weight matrix. -/
theorem rd3 (c : Dev nD) (t : Fin cfg1.N) : iblk1 V c 3 t = V c main_arg4 := by
  obtain ⟨-, -, -, -, -, -, e0, e1, -⟩ := idx1 t
  funext y
  unfold iblk1
  rw [View.read_apply]
  show V c main_arg4 _ = V c main_arg4 _
  refine congrArg _ (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The launch's result as one function of the arrays it finds. -/
def result (c : Dev nD) : Mat 50000 64 :=
  scaleRows (V c main_v16) (mm (hidden (V c main_v16) (V c main_v30) (V c main_v17)) (V c main_arg4))

/-- What point t writes back is block t of that function. -/
theorem flushed1 (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S10000x64) hz, View.ld_unit_zero (S := S64x64) hz, View.ld_unit_zero (S := S10000x1) hz,
    View.ld_unit_zero (S := S1x64) hz]
  rw [pay1_eq]
  funext j
  obtain ⟨p, q, rfl⟩ : ∃ (p : Fin 10000) (q : Fin 64), j = ix2 p q := ⟨j 0, j 1, eq_ix2 j⟩
  obtain ⟨-, -, -, -, -, -, -, -, e0, e1⟩ := idx1 t
  have hE : ((cfg1.win 4).blk t).view.emb (ix2 p q) = (ix2 (rowOf t.val (tlt t) p) q : S50000x64.Idx) := by
    funext a; apply Fin.ext
    match a with
    | ⟨0, _⟩ => show win1_4.index t (0 : Fin 2) * 10000 + 1 * p.val = t.val * 10000 + p.val; rw [e0]; omega
    | ⟨1, _⟩ => show win1_4.index t (1 : Fin 2) * 64 + 1 * q.val = q.val; rw [e1]; omega
  show scaleRows (iblk1 V c 2 t) (mm (hidden (iblk1 V c 2 t) (iblk1 V c 0 t) (iblk1 V c 1 t)) (iblk1 V c 3 t)) (ix2 p q)
    = result V c (((cfg1.win 4).blk t).view.emb (ix2 p q))
  rw [hE]
  exact scaleRows_mm_rows (hidden (V c main_v16) (V c main_v30) (V c main_v17)) (V c main_arg4) (V c main_v16)
    (hidden (iblk1 V c 2 t) (iblk1 V c 0 t) (iblk1 V c 1 t)) (iblk1 V c 3 t) (iblk1 V c 2 t) (rowOf t.val (tlt t))
    (hidden_rows (V c main_v16) (V c main_v30) (V c main_v17) (iblk1 V c 2 t) (iblk1 V c 0 t) (iblk1 V c 1 t)
      (rowOf t.val (tlt t)) (rd2 V c t) (rd0 V c t) (rd1 V c t))
    (rd3 V c t) (rd2 V c t) p q

/-- Every entry of the result array lies in the block of the point that holds its row. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 5 := N_1
  let t : Fin cfg1.N := ⟨(i 0).val / 10000, by omega⟩
  obtain ⟨-, -, -, -, -, -, -, -, e0, e1⟩ := idx1 t
  refine ⟨t, flush1_4 t, ?_⟩
  show i ∈ ((View.whole main_v31).slice (win1_4.rect t)).set
  rw [View.set_slice_whole, Rect.mem_set_unit]
  intro a
  match a with
  | ⟨0, _⟩ => show win1_4.index t (0 : Fin 2) * 10000 ≤ (i 0).val ∧ (i 0).val < win1_4.index t (0 : Fin 2) * 10000 + 10000
              rw [e0]; show (i 0).val / 10000 * 10000 ≤ (i 0).val ∧ (i 0).val < (i 0).val / 10000 * 10000 + 10000; omega
  | ⟨1, _⟩ => show win1_4.index t (1 : Fin 2) * 64 ≤ (i 1).val ∧ (i 1).val < win1_4.index t (1 : Fin 2) * 64 + 64
              rw [e1]; omega

/-- After the launch the result array holds that function of the arrays the launch found. -/
theorem final1 (c : Dev nD) : (dat1 V c).arrAt 4 cfg1.N = result V c :=
  (dat1 V c).arrAt_eq_of_cover 4 _ (fun t _ => flushed1 V c t) cover1

end Cert.KernelIdeal.Reg1

end
-- ==== Proof.Reg2.lean ====
/-
  The second middle launch: rows scaled and biased, rectified, multiplied by the weights, rows scaled again.

  At grid point t the body loads rows 10000·t … of the aggregated array P and of the column d, the
  whole bias row b and the whole weight matrix W; it forms d(p)·P(p, ·) + b, applies the leaky
  rectifier, multiplies by W into a zero accumulator, scales row p by d(p) and stores the block. The
  blocks tile the result, so after the launch the result array is that function of the arrays the
  launch found.
-/
import proofs.«176285_j20882130993665_1_alg».proof.Proof.KerBlocks
import proofs.«176285_j20882130993665_1_alg».proof.Proof.LibGraphConv
import Idealize.ShloMosaic.Lib.Pipeline.Value
import Idealize.ShloMosaic.Lib.Tactic

set_option maxRecDepth 16384

noncomputable section

open scoped BigOperators

namespace Cert.KernelIdeal.Reg2

open Cert.KernelIdeal Cert.KernelIdeal.Gen Cert.KernelIdeal.Blocks Cert.Dense Cert.GcnLayer Cert.GraphConv
open Idealize.ShloMosaic Idealize.ShloMosaic.TcCoe Idealize.ShloMosaic.ValueIdx Idealize.SL.Sem
open Idealize.ShloMosaic.Pipeline (Dat)

/-- The body's stored value, from its loads (the column is loaded twice): the hidden activation's
    product with the weights, rows scaled. -/
theorem pay2_eq (v0 v19 : Vec Ideal S10000x1 .f32) (v2 : Vec Ideal S10000x64 .f32) (v6 : Vec Ideal S1x64 .f32)
    (v16 : Vec Ideal S64x4 .f32) :
    k2_pay1 v0 v2 v6 v16 v19 = scaleRows v19 (mm (hidden v0 v2 v6) v16) := by
  unfold k2_pay1
  funext i
  obtain ⟨p, q, rfl⟩ : ∃ (p : Fin 10000) (q : Fin 4), i = ix2 p q := ⟨i 0, i 1, eq_ix2 i⟩
  show broadcastTo S10000x4 (shapeCast S10000x1 v19 shapeCasts_S10000x1_S10000x1) broadcasts_S10000x1_S10000x4 (ix2 p q)
      * matmul dot_S10000x64_S64x4_S10000x4_1_0_0_1_n_n none (truncf .bf16 _ bitsLt_bf16_f32) (truncf .bf16 v16 bitsLt_bf16_f32) (constant (F := Ideal) S10000x4 .f32 0x00000000#32) (ix2 p q)
    = v19 (ix2 p (0 : Fin 1)) * mm (hidden v0 v2 v6) v16 (ix2 p q)
  rw [shapeCast_self, broadcastTo_col_apply, dot4_eq, truncf_id, truncf_id, matmul_plain_zero]
  refine congrArg _ (congrFun (congrArg (fun A => mm A v16) ?_) _)
  funext i'
  obtain ⟨p', q', rfl⟩ : ∃ (p' : Fin 10000) (q' : Fin 64), i' = ix2 p' q' := ⟨i' 0, i' 1, eq_ix2 i'⟩
  show leakyE (broadcastTo S10000x64 (shapeCast S10000x1 v0 shapeCasts_S10000x1_S10000x1) broadcasts_S10000x1_S10000x64 (ix2 p' q')
        * shapeCast S10000x64 v2 shapeCasts_S10000x64_S10000x64 (ix2 p' q')
      + broadcastTo S10000x64 (shapeCast S1x64 v6 shapeCasts_S1x64_S1x64) broadcasts_S1x64_S10000x64 (ix2 p' q'))
    = leakyE (v0 (ix2 p' (0 : Fin 1)) * v2 (ix2 p' q') + v6 (ix2 (0 : Fin 1) q'))
  rw [shapeCast_self, shapeCast_self, shapeCast_self, broadcastTo_col_apply, broadcastTo_1b_ab_apply]

variable (V : (c : Dev nD) → (b : Ref sig .tc) → Buf (Elt Ideal) ((c : Thread nD τ).loc b))

/-- The block indices at point t: row-blocked operands at (t, 0), whole operands at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem tlt (t : Fin cfg2.N) : t.val < 5 := by
  have h : cfg2.N = 5 := N_2
  have := t.isLt
  omega

/-- Window 0's block at point t is rows 10000·t … of the aggregated array. -/
theorem rd0 (c : Dev nD) (t : Fin cfg2.N) (p : Fin 10000) (k : Fin 64) :
    iblk2 V c 0 t (ix2 p k) = V c main_v41 (ix2 (rowOf t.val (tlt t) p) k) := by
  obtain ⟨e0, e1, -⟩ := idx2 t
  unfold iblk2
  rw [View.read_apply]
  show V c main_v41 _ = V c main_v41 _
  refine congrArg _ (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 64 + 1 * k.val = k.val; rw [e1]; omega

/-- Window 1's block at every point is the whole bias row. -/
theorem rd1 (c : Dev nD) (t : Fin cfg2.N) : iblk2 V c 1 t = V c main_v18 := by
  obtain ⟨-, -, e0, e1, -⟩ := idx2 t
  funext y
  unfold iblk2
  rw [View.read_apply]
  show V c main_v18 _ = V c main_v18 _
  refine congrArg _ (funext fun a => Fin.ext ?_)
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega

/-- Window 2's block at point t is rows 10000·t … of the column. -/
theorem rd2 (c : Dev nD) (t : Fin cfg2.N) (p : Fin 10000) :
    iblk2 V c 2 t (ix2 p (0 : Fin 1)) = V c main_v16 (ix2 (rowOf t.val (tlt t) p) (0 : Fin 1)) := by
  obtain ⟨-, -, -, -, e0, e1, -⟩ := idx2 t
  unfold iblk2
  rw [View.read_apply]
  show V c main_v16 _ = V c main_v16 _
  refine congrArg _ (funext fun a => Fin.ext ?_)
  match a with
  | ⟨0, _⟩ => show win2_2.index t (0 : Fin 2) * 10000 + 1 * p.val = t.val * 10000 + p.val; rw [e0]; omega
  | ⟨1, _⟩ => show win2_2.index t (1 : Fin 2) * 1 + 1 * 0 = 0; rw [e1]

/-- Window 3's block at every point is the whole weight matrix. -/
theorem rd3 (c : Dev nD) (t : Fin cfg2.N) : iblk2 V c 3 t = V c main_arg6 := by
  obtain ⟨-, -, -, -, -, -, e0, e1, -⟩ := idx2 t
  funext y
  unfold iblk2
  rw [View.read_apply]
  show V c main_arg6 _ = V c main_arg6 _
  refine congrArg _ (funext fun a => Fin.ext ?_)
  match a with
  | ⟨0, _⟩ => show win2_3.index t (0 : Fin 2) * 64 + 1 * (y 0).val = (y 0).val; rw [e0]; omega
  | ⟨1, _⟩ => show win2_3.index t (1 : Fin 2) * 4 + 1 * (y 1).val = (y 1).val; rw [e1]; omega

/-- The launch's result as one function of the arrays it finds. -/
def result (c : Dev nD) : Mat 50000 4 :=
  scaleRows (V c main_v16) (mm (hidden (V c main_v16) (V c main_v41) (V c main_v18)) (V c main_arg6))

/-- What point t writes back is block t of that function. -/
theorem flushed2 (c : Dev nD) (t : Fin cfg2.N) :
    (dat2 V c).flushed 4 t = ((cfg2.win 4).blk t).view.read (Elt Ideal) (result V c) := by
  show (cfg2.win 4).cut (grid2.coords t) ((dat2 V c).after 4 t) = _
  rw [after2_4]
  unfold out2_4
  rw [View.canon_unit_zero hz]
  simp only [View.ld_unit_zero (S := S10000x64) hz, View.ld_unit_zero (S := S64x4) hz, View.ld_unit_zero (S := S10000x1) hz,
    View.ld_unit_zero (S := S1x64) hz]
  rw [pay2_eq]
  funext j
  obtain ⟨p, q, rfl⟩ : ∃ (p : Fin 10000) (q : Fin 4), j = ix2 p q := ⟨j 0, j 1, eq_ix2 j⟩
  obtain ⟨-, -, -, -, -, -, -, -, e0, e1⟩ := idx2 t
  have hE : ((cfg2.win 4).blk t).view.emb (ix2 p q) = (ix2 (rowOf t.val (tlt t) p) q : S50000x4.Idx) := by
    funext a; apply Fin.ext
    match a with
    | ⟨0, _⟩ => show win2_4.index t (0 : Fin 2) * 10000 + 1 * p.val = t.val * 10000 + p.val; rw [e0]; omega
    | ⟨1, _⟩ => show win2_4.index t (1 : Fin 2) * 4 + 1 * q.val = q.val; rw [e1]; omega
  show scaleRows (iblk2 V c 2 t) (mm (hidden (iblk2 V c 2 t) (iblk2 V c 0 t) (iblk2 V c 1 t)) (iblk2 V c 3 t)) (ix2 p q)
    = result V c (((cfg2.win 4).blk t).view.emb (ix2 p q))
  rw [hE]
  exact scaleRows_mm_rows (hidden (V c main_v16) (V c main_v41) (V c main_v18)) (V c main_arg6) (V c main_v16)
    (hidden (iblk2 V c 2 t) (iblk2 V c 0 t) (iblk2 V c 1 t)) (iblk2 V c 3 t) (iblk2 V c 2 t) (rowOf t.val (tlt t))
    (hidden_rows (V c main_v16) (V c main_v41) (V c main_v18) (iblk2 V c 2 t) (iblk2 V c 0 t) (iblk2 V c 1 t)
      (rowOf t.val (tlt t)) (rd2 V c t) (rd0 V c t) (rd1 V c t))
    (rd3 V c t) (rd2 V c t) p q

/-- Every entry of the result array lies in the block of the point that holds its row. -/
theorem cover2 (i : S50000x4.Idx) : ∃ t : Fin cfg2.N, (cfg2.win 4).flush t = true ∧ i ∈ ((cfg2.win 4).blk t).view.set := by
  have hi0 : (i 0).val < 50000 := (i 0).isLt
  have hi1 : (i 1).val < 4 := (i 1).isLt
  have hN : cfg2.N = 5 := N_2
  let t : Fin cfg2.N := ⟨(i 0).val / 10000, by omega⟩
  obtain ⟨-, -, -, -, -, -, -, -, e0, e1⟩ := idx2 t
  refine ⟨t, flush2_4 t, ?_⟩
  show i ∈ ((View.whole main_v42).slice (win2_4.rect t)).set
  rw [View.set_slice_whole, Rect.mem_set_unit]
  intro a
  match a with
  | ⟨0, _⟩ => show win2_4.index t (0 : Fin 2) * 10000 ≤ (i 0).val ∧ (i 0).val < win2_4.index t (0 : Fin 2) * 10000 + 10000
              rw [e0]; show (i 0).val / 10000 * 10000 ≤ (i 0).val ∧ (i 0).val < (i 0).val / 10000 * 10000 + 10000; omega
  | ⟨1, _⟩ => show win2_4.index t (1 : Fin 2) * 4 ≤ (i 1).val ∧ (i 1).val < win2_4.index t (1 : Fin 2) * 4 + 4
              rw [e1]; omega

/-- After the launch the result array holds that function of the arrays the launch found. -/
theorem final2 (c : Dev nD) : (dat2 V c).arrAt 4 cfg2.N = result V c :=
  (dat2 V c).arrAt_eq_of_cover 4 _ (fun t _ => flushed2 V c t) cover2

end Cert.KernelIdeal.Reg2

end
-- ==== Proof.Reg3.lean ====
/-
  The last launch: every row of the aggregated array scaled by the column d, plus the bias row.

  At grid point t the body loads rows 10000·t … of the aggregated array P and of d and the whole bias
  row b, forms d(p)·P(p, ·) + b and stores the block; the blocks tile the result.
-/
import proofs.«176285_j20882130993665_1_alg».proof.Proof.KerBlocks
import proofs.«176285_j20882130993665_1_alg».proof.Proof.LibGraphConv
import Idealize.ShloMosaic.Lib.Pipeline.Value
import Idealize.ShloMosaic.Lib.Tactic

set_option maxRecDepth 16384

noncomputable section

open scoped BigOperators

namespace Cert.KernelIdeal.Reg3

open Cert.KernelIdeal Cert.KernelIdeal.Gen Cert.KernelIdeal.Blocks Cert.Dense Cert.GcnLayer Cert.GraphConv
open Idealize.ShloMosaic Idealize.ShloMosaic.TcCoe Idealize.ShloMosaic.ValueIdx Idealize.SL.Sem
open Idealize.ShloMosaic.Pipeline (Dat)

/-- The body's stored value, from its three loads. -/
theorem pay3_eq (v0 : Vec Ideal S10000x1 .f32) (v2 : Vec Ideal S10000x4 .f32) (v6 : Vec Ideal S1x4 .f32) :
    k3_pay1 v0 v2 v6 = biasRows v6 (scaleRows v0 v2) := by
  unfold k3_pay1
  funext i
  obtain ⟨p, q, rfl⟩ : ∃ (p : Fin 10000) (q : Fin 4), i = ix2 p q := ⟨i 0, i 1, eq_ix2 i⟩
  show broadcastTo S10000x4 (shapeCast S10000x1 v0 shapeCasts_S10000x1_S10000x1) broadcasts_S10000x1_S10000x4 (ix2 p q)
        * shapeCast S10000x4 v2 shapeCasts_S10000x4_S10000x4 (ix2 p q)
      + broadcastTo S10000x4 (shapeCast S1x4 v6 shapeCasts_S1x4_S1x4) broadcasts_S1x4_S10000x4 (ix2 p q)
    = v0 (ix2 p (0 : Fin 1)) * v2 (ix2 p q) + v6 (ix2 (0 : Fin 1) q)
  rw [shapeCast_self, shapeCast_self, shapeCast_self, broadcastTo_col_apply, broadcastTo_1b_ab_apply]

variable (V : (c : Dev nD) → (b : Ref sig .tc) → Buf (Elt Ideal) ((c : Thread nD τ).loc b))

/-- The block indices at point t: row-blocked operands at (t, 0), the bias row at (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem tlt (t : Fin cfg3.N) : t.val < 5 := by
  have h : cfg3.N = 5 := N_3
  have := t.isLt
  omega

/-- Window 0's block at point t is rows 10000·t … of the aggregated array. -/
theorem rd0 (c : Dev nD) (t : Fin cfg3.N) (p : Fin 10000) (k : Fin 4) :
    iblk3 V c 0 t (ix2 p k) = V c main_v52 (ix2 (rowOf t.val (tlt t) p) k) := by
  obtain ⟨e0, e1, -⟩ := idx3 t
  unfold iblk3
  rw [View.read_apply]
  show V c main_v52 _ = V c main_v52 _
  refine congrArg _ (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 4 + 1 * k.val = k.val; rw [e1]; omega

/-- Window 1's block at every point is the whole bias row. -/
theorem rd1 (c : Dev nD) (t : Fin cfg3.N) : iblk3 V c 1 t = V c main_v19 := by
  obtain ⟨-, -, e0, e1, -⟩ := idx3 t
  funext y
  unfold iblk3
  rw [View.read_apply]
  show V c main_v19 _ = V c main_v19 _
  refine congrArg _ (funext fun a => Fin.ext ?_)
  match a with
  | ⟨0, _⟩ => show win3_1.index t (0 : Fin 2) * 1 + 1 * (y 0).val = (y 0).val; rw [e0]; omega
  | ⟨1, _⟩ => show win3_1.index t (1 : Fin 2) * 4 + 1 * (y 1).val = (y 1).val; rw [e1]; omega

/-- Window 2's block at point t is rows 10000·t … of the column. -/
theorem rd2 (c : Dev nD) (t : Fin cfg3.N) (p : Fin 10000) :
    iblk3 V c 2 t (ix2 p (0 : Fin 1)) = V c main_v16 (ix2 (rowOf t.val (tlt t) p) (0 : Fin 1)) := by
  obtain ⟨-, -, -, -, e0, e1, -⟩ := idx3 t
  unfold iblk3
  rw [View.read_apply]
  show V c main_v16 _ = V c main_v16 _
  refine congrArg _ (funext fun a => Fin.ext ?_)
  match a with
  | ⟨0, _⟩ => show win3_2.index t (0 : Fin 2) * 10000 + 1 * p.val = t.val * 10000 + p.val; rw [e0]; omega
  | ⟨1, _⟩ => show win3_2.index t (1 : Fin 2) * 1 + 1 * 0 = 0; rw [e1]

/-- The launch's result as one function of the arrays it finds. -/
def result (c : Dev nD) : Mat 50000 4 := biasRows (V c main_v19) (scaleRows (V c main_v16) (V c main_v52))

/-- What point t writes back is block t of that function. -/
theorem flushed3 (c : Dev nD) (t : Fin cfg3.N) :
    (dat3 V c).flushed 3 t = ((cfg3.win 3).blk t).view.read (Elt Ideal) (result V c) := by
  show (cfg3.win 3).cut (grid3.coords t) ((dat3 V c).after 3 t) = _
  rw [after3_3]
  unfold out3_3
  rw [View.canon_unit_zero hz]
  simp only [View.ld_unit_zero (S := S10000x4) hz, View.ld_unit_zero (S := S10000x1) hz, View.ld_unit_zero (S := S1x4) hz]
  rw [pay3_eq]
  funext j
  obtain ⟨p, q, rfl⟩ : ∃ (p : Fin 10000) (q : Fin 4), j = ix2 p q := ⟨j 0, j 1, eq_ix2 j⟩
  obtain ⟨-, -, -, -, -, -, e0, e1⟩ := idx3 t
  have hE : ((cfg3.win 3).blk t).view.emb (ix2 p q) = (ix2 (rowOf t.val (tlt t) p) q : S50000x4.Idx) := by
    funext a; apply Fin.ext
    match a with
    | ⟨0, _⟩ => show win3_3.index t (0 : Fin 2) * 10000 + 1 * p.val = t.val * 10000 + p.val; rw [e0]; omega
    | ⟨1, _⟩ => show win3_3.index t (1 : Fin 2) * 4 + 1 * q.val = q.val; rw [e1]; omega
  show biasRows (iblk3 V c 1 t) (scaleRows (iblk3 V c 2 t) (iblk3 V c 0 t)) (ix2 p q)
    = result V c (((cfg3.win 3).blk t).view.emb (ix2 p q))
  rw [hE]
  exact biasRows_scaleRows_rows (V c main_v16) (V c main_v52) (V c main_v19) (iblk3 V c 2 t) (iblk3 V c 0 t) (iblk3 V c 1 t)
    (rowOf t.val (tlt t)) (rd2 V c t) (rd0 V c t) (rd1 V c t) p q

/-- Every entry of the result array lies in the block of the point that holds its row. -/
theorem cover3 (i : S50000x4.Idx) : ∃ t : Fin cfg3.N, (cfg3.win 3).flush t = true ∧ i ∈ ((cfg3.win 3).blk t).view.set := by
  have hi0 : (i 0).val < 50000 := (i 0).isLt
  have hi1 : (i 1).val < 4 := (i 1).isLt
  have hN : cfg3.N = 5 := N_3
  let t : Fin cfg3.N := ⟨(i 0).val / 10000, by omega⟩
  obtain ⟨-, -, -, -, -, -, e0, e1⟩ := idx3 t
  refine ⟨t, flush3_3 t, ?_⟩
  show i ∈ ((View.whole main_v53).slice (win3_3.rect t)).set
  rw [View.set_slice_whole, Rect.mem_set_unit]
  intro a
  match a with
  | ⟨0, _⟩ => show win3_3.index t (0 : Fin 2) * 10000 ≤ (i 0).val ∧ (i 0).val < win3_3.index t (0 : Fin 2) * 10000 + 10000
              rw [e0]; show (i 0).val / 10000 * 10000 ≤ (i 0).val ∧ (i 0).val < (i 0).val / 10000 * 10000 + 10000; omega
  | ⟨1, _⟩ => show win3_3.index t (1 : Fin 2) * 4 ≤ (i 1).val ∧ (i 1).val < win3_3.index t (1 : Fin 2) * 4 + 4
              rw [e1]; omega

/-- After the launch the result array holds that function of the arrays the launch found. -/
theorem final3 (c : Dev nD) : (dat3 V c).arrAt 3 cfg3.N = result V c :=
  (dat3 V c).arrAt_eq_of_cover 3 _ (fun t _ => flushed3 V c t) cover3

end Cert.KernelIdeal.Reg3

end
-- ==== Proof.KerChain.lean ====
/-
  The result array as one function of the eight arguments.

  The buffer contents at the boundaries between the program's segments form a chain. A launch
  changes only its result array, a host stretch only the buffers it writes; so the index vectors,
  the column d and the reshaped bias rows, all formed before the first launch, reach every later
  segment unchanged, and each launch's result and each aggregation can be written in terms of the
  one before. Followed to the end this gives the result array as: three layers of "scale the rows
  by d, multiply by the weights, scale again, gather and accumulate along the edges, scale, add the
  bias" with the leaky rectifier between them.
-/
import proofs.«176285_j20882130993665_1_alg».proof.Proof.KerHost
import proofs.«176285_j20882130993665_1_alg».proof.Proof.Reg0
import proofs.«176285_j20882130993665_1_alg».proof.Proof.Reg1
import proofs.«176285_j20882130993665_1_alg».proof.Proof.Reg2
import proofs.«176285_j20882130993665_1_alg».proof.Proof.Reg3

set_option maxRecDepth 16384

noncomputable section

namespace Cert.KernelIdeal.KerChain

open Cert.KernelIdeal Cert.KernelIdeal.Gen Cert.KernelIdeal.KerHost Cert.Dense Cert.GcnLayer
open Idealize.ShloMosaic Idealize.ShloMosaic.TcCoe Idealize.SL.Sem Idealize.ShloMosaic.StableHlo
open Idealize.ShloMosaic.Pipeline (Dat)

/-- A host stretch leaves a buffer it does not write as it found it. -/
macro "keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## What the first launch finds -/

theorem w1_of (b : Ref sig .tc) (h : after (hostOps0 (F := Ideal)) (W0 m ρ c) (Proc.devRef .tc b) = W0 m ρ c (Proc.devRef .tc b)) :
    W1 m ρ c (Proc.devRef .tc b) = m ((c : Thread nD τ).loc b) := h

theorem b_arg0 : W3 m ρ c (Proc.devRef .tc main_arg0) = m ((c : Thread nD τ).loc main_arg0) :=
  calc W3 m ρ c (Proc.devRef .tc main_arg0) = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = _ := rfl
theorem b_arg2 : W3 m ρ c (Proc.devRef .tc main_arg2) = m ((c : Thread nD τ).loc main_arg2) :=
  calc W3 m ρ c (Proc.devRef .tc main_arg2) = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = _ := rfl
theorem b_arg4 : W3 m ρ c (Proc.devRef .tc main_arg4) = m ((c : Thread nD τ).loc main_arg4) :=
  calc W3 m ρ c (Proc.devRef .tc main_arg4) = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = _ := rfl
theorem b_arg6 : W3 m ρ c (Proc.devRef .tc main_arg6) = m ((c : Thread nD τ).loc main_arg6) :=
  calc W3 m ρ c (Proc.devRef .tc main_arg6) = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = _ := rfl

/-- The bias vectors as the reshapes find them. -/
theorem w2_arg3 : W2 m ρ c (Proc.devRef .tc main_arg3) = m ((c : Thread nD τ).loc main_arg3) :=
  calc W2 m ρ c (Proc.devRef .tc main_arg3) = W1 m ρ c (Proc.devRef .tc main_arg3) := by keeps hostOps0_1
    _ = W0 m ρ c (Proc.devRef .tc main_arg3) := by keeps hostOps0
    _ = _ := rfl
theorem w2_arg5 : W2 m ρ c (Proc.devRef .tc main_arg5) = m ((c : Thread nD τ).loc main_arg5) :=
  calc W2 m ρ c (Proc.devRef .tc main_arg5) = W1 m ρ c (Proc.devRef .tc main_arg5) := by keeps hostOps0_1
    _ = W0 m ρ c (Proc.devRef .tc main_arg5) := by keeps hostOps0
    _ = _ := rfl
theorem w2_arg7 : W2 m ρ c (Proc.devRef .tc main_arg7) = m ((c : Thread nD τ).loc main_arg7) :=
  calc W2 m ρ c (Proc.devRef .tc main_arg7) = W1 m ρ c (Proc.devRef .tc main_arg7) := by keeps hostOps0_1
    _ = W0 m ρ c (Proc.devRef .tc main_arg7) := by keeps hostOps0
    _ = _ := rfl

/-- The index vectors. -/
theorem b_v5 : W3 m ρ c (Proc.devRef .tc main_v5) = srcRaw (m ((c : Thread nD τ).loc main_arg1)) :=
  calc W3 m ρ c (Proc.devRef .tc main_v5) = W2 m ρ c (Proc.devRef .tc main_v5) := by keeps hostOps0_2
    _ = W1 m ρ c (Proc.devRef .tc main_v5) := by keeps hostOps0_1
    _ = _ := pre_v5 (W0 m ρ c)
theorem b_v6 : W3 m ρ c (Proc.devRef .tc main_v6) = dstRaw (m ((c : Thread nD τ).loc main_arg1)) :=
  calc W3 m ρ c (Proc.devRef .tc main_v6) = W2 m ρ c (Proc.devRef .tc main_v6) := by keeps hostOps0_2
    _ = W1 m ρ c (Proc.devRef .tc main_v6) := by keeps hostOps0_1
    _ = _ := pre_v6 (W0 m ρ c)

/-- The column d: the reciprocal square roots of the counts, as a column. -/
def dcol (ei : IVec S2x800000 32) : Mat 50000 1 := shapeCast S50000x1 (dinv (F := Ideal) ei) shapeCasts_S50000_S50000x1

theorem b_v16 : W3 m ρ c (Proc.devRef .tc main_v16) = dcol (m ((c : Thread nD τ).loc main_arg1)) := by
  show after (hostOps0_2 (F := Ideal)) (W2 m ρ c) (Proc.devRef .tc main_v16) = _
  rw [shp_v16]
  show shapeCast S50000x1 (after (hostOps0_1 (F := Ideal)) (W1 m ρ c) (Proc.devRef .tc main_v15)) shapeCasts_S50000_S50000x1 = _
  rw [where_v15]
  show shapeCast S50000x1 (select (after (hostOps0 (F := Ideal)) (W0 m ρ c) (Proc.devRef .tc main_v12)) (after (hostOps0 (F := Ideal)) (W0 m ρ c) (Proc.devRef .tc main_v13))
    (after (hostOps0 (F := Ideal)) (W0 m ρ c) (Proc.devRef .tc main_v14))) shapeCasts_S50000_S50000x1 = _
  rw [pre_v12, pre_v13, pre_v14]
  rfl

/-- The bias rows. -/
def brow64 (b : FVec Ideal S64 .f32) : Mat 1 64 := shapeCast S1x64 b shapeCasts_S64_S1x64
def brow4 (b : FVec Ideal S4 .f32) : Mat 1 4 := shapeCast S1x4 b shapeCasts_S4_S1x4

theorem b_v17 : W3 m ρ c (Proc.devRef .tc main_v17) = brow64 (m ((c : Thread nD τ).loc main_arg3)) := by
  show after (hostOps0_2 (F := Ideal)) (W2 m ρ c) (Proc.devRef .tc main_v17) = _
  rw [shp_v17, w2_arg3]; rfl
theorem b_v18 : W3 m ρ c (Proc.devRef .tc main_v18) = brow64 (m ((c : Thread nD τ).loc main_arg5)) := by
  show after (hostOps0_2 (F := Ideal)) (W2 m ρ c) (Proc.devRef .tc main_v18) = _
  rw [shp_v18, w2_arg5]; rfl
theorem b_v19 : W3 m ρ c (Proc.devRef .tc main_v19) = brow4 (m ((c : Thread nD τ).loc main_arg7)) := by
  show after (hostOps0_2 (F := Ideal)) (W2 m ρ c) (Proc.devRef .tc main_v19) = _
  rw [shp_v19, w2_arg7]; rfl

/-! ## What every later segment finds of the buffers formed before the first launch -/

/-! ### Across the first launch -/
theorem w4_v5 : W4 m ρ c (Proc.devRef .tc main_v5) = W3 m ρ c (Proc.devRef .tc main_v5) := W4_of_ne m ρ c main_v5 (by decide)
theorem w4_v6 : W4 m ρ c (Proc.devRef .tc main_v6) = W3 m ρ c (Proc.devRef .tc main_v6) := W4_of_ne m ρ c main_v6 (by decide)
theorem w4_v17 : W4 m ρ c (Proc.devRef .tc main_v17) = W3 m ρ c (Proc.devRef .tc main_v17) := W4_of_ne m ρ c main_v17 (by decide)
theorem w4_v18 : W4 m ρ c (Proc.devRef .tc main_v18) = W3 m ρ c (Proc.devRef .tc main_v18) := W4_of_ne m ρ c main_v18 (by decide)
theorem w4_v19 : W4 m ρ c (Proc.devRef .tc main_v19) = W3 m ρ c (Proc.devRef .tc main_v19) := W4_of_ne m ρ c main_v19 (by decide)
theorem w4_arg4 : W4 m ρ c (Proc.devRef .tc main_arg4) = W3 m ρ c (Proc.devRef .tc main_arg4) := W4_of_ne m ρ c main_arg4 (by decide)
theorem w4_arg6 : W4 m ρ c (Proc.devRef .tc main_arg6) = W3 m ρ c (Proc.devRef .tc main_arg6) := W4_of_ne m ρ c main_arg6 (by decide)
theorem w4_v16 : W4 m ρ c (Proc.devRef .tc main_v16) = W3 m ρ c (Proc.devRef .tc main_v16) :=
  (W4_arr m ρ c 2).trans (((dat0 (V3 m ρ) c).arrAt_in 2 rfl _).trans (A_eq0 (V3 m ρ) c 2))

/-! ### Across the first aggregation -/
theorem w5_v5 : W5 m ρ c (Proc.devRef .tc main_v5) = W4 m ρ c (Proc.devRef .tc main_v5) := by keeps hostOps1
theorem w5_v6 : W5 m ρ c (Proc.devRef .tc main_v6) = W4 m ρ c (Proc.devRef .tc main_v6) := by keeps hostOps1
theorem w5_v16 : W5 m ρ c (Proc.devRef .tc main_v16) = W4 m ρ c (Proc.devRef .tc main_v16) := by keeps hostOps1
theorem w5_v17 : W5 m ρ c (Proc.devRef .tc main_v17) = W4 m ρ c (Proc.devRef .tc main_v17) := by keeps hostOps1
theorem w5_v18 : W5 m ρ c (Proc.devRef .tc main_v18) = W4 m ρ c (Proc.devRef .tc main_v18) := by keeps hostOps1
theorem w5_v19 : W5 m ρ c (Proc.devRef .tc main_v19) = W4 m ρ c (Proc.devRef .tc main_v19) := by keeps hostOps1
theorem w5_arg4 : W5 m ρ c (Proc.devRef .tc main_arg4) = W4 m ρ c (Proc.devRef .tc main_arg4) := by keeps hostOps1
theorem w5_arg6 : W5 m ρ c (Proc.devRef .tc main_arg6) = W4 m ρ c (Proc.devRef .tc main_arg6) := by keeps hostOps1

/-! ### Across the second launch -/
theorem w6_v5 : W6 m ρ c (Proc.devRef .tc main_v5) = W5 m ρ c (Proc.devRef .tc main_v5) := W6_of_ne m ρ c main_v5 (by decide)
theorem w6_v6 : W6 m ρ c (Proc.devRef .tc main_v6) = W5 m ρ c (Proc.devRef .tc main_v6) := W6_of_ne m ρ c main_v6 (by decide)
theorem w6_v18 : W6 m ρ c (Proc.devRef .tc main_v18) = W5 m ρ c (Proc.devRef .tc main_v18) := W6_of_ne m ρ c main_v18 (by decide)
theorem w6_v19 : W6 m ρ c (Proc.devRef .tc main_v19) = W5 m ρ c (Proc.devRef .tc main_v19) := W6_of_ne m ρ c main_v19 (by decide)
theorem w6_arg6 : W6 m ρ c (Proc.devRef .tc main_arg6) = W5 m ρ c (Proc.devRef .tc main_arg6) := W6_of_ne m ρ c main_arg6 (by decide)
theorem w6_v16 : W6 m ρ c (Proc.devRef .tc main_v16) = W5 m ρ c (Proc.devRef .tc main_v16) :=
  (W6_arr m ρ c 2).trans (((dat1 (V5 m ρ) c).arrAt_in 2 rfl _).trans (A_eq1 (V5 m ρ) c 2))

/-! ### Across the second aggregation -/
theorem w7_v5 : W7 m ρ c (Proc.devRef .tc main_v5) = W6 m ρ c (Proc.devRef .tc main_v5) := by keeps hostOps2
theorem w7_v6 : W7 m ρ c (Proc.devRef .tc main_v6) = W6 m ρ c (Proc.devRef .tc main_v6) := by keeps hostOps2
theorem w7_v16 : W7 m ρ c (Proc.devRef .tc main_v16) = W6 m ρ c (Proc.devRef .tc main_v16) := by keeps hostOps2
theorem w7_v18 : W7 m ρ c (Proc.devRef .tc main_v18) = W6 m ρ c (Proc.devRef .tc main_v18) := by keeps hostOps2
theorem w7_v19 : W7 m ρ c (Proc.devRef .tc main_v19) = W6 m ρ c (Proc.devRef .tc main_v19) := by keeps hostOps2
theorem w7_arg6 : W7 m ρ c (Proc.devRef .tc main_arg6) = W6 m ρ c (Proc.devRef .tc main_arg6) := by keeps hostOps2

/-! ### Across the third launch -/
theorem w8_v5 : W8 m ρ c (Proc.devRef .tc main_v5) = W7 m ρ c (Proc.devRef .tc main_v5) := W8_of_ne m ρ c main_v5 (by decide)
theorem w8_v6 : W8 m ρ c (Proc.devRef .tc main_v6) = W7 m ρ c (Proc.devRef .tc main_v6) := W8_of_ne m ρ c main_v6 (by decide)
theorem w8_v19 : W8 m ρ c (Proc.devRef .tc main_v19) = W7 m ρ c (Proc.devRef .tc main_v19) := W8_of_ne m ρ c main_v19 (by decide)
theorem w8_v16 : W8 m ρ c (Proc.devRef .tc main_v16) = W7 m ρ c (Proc.devRef .tc main_v16) :=
  (W8_arr m ρ c 2).trans (((dat2 (V7 m ρ) c).arrAt_in 2 rfl _).trans (A_eq2 (V7 m ρ) c 2))

/-! ### Across the third aggregation -/
theorem w9_v16 : W9 m ρ c (Proc.devRef .tc main_v16) = W8 m ρ c (Proc.devRef .tc main_v16) := by keeps hostOps3
theorem w9_v19 : W9 m ρ c (Proc.devRef .tc main_v19) = W8 m ρ c (Proc.devRef .tc main_v19) := by keeps hostOps3

/-! ## The stages as functions of the eight arguments -/

/-- The first launch's result: x·W0 with its rows scaled by d. -/
def st_k0 (x : Mat 50000 64) (ei : IVec S2x800000 32) (W0 : Mat 64 64) : Mat 50000 64 := scaleRows (dcol ei) (mm x W0)
/-- Aggregated along the edges. -/
def st_p0 (x : Mat 50000 64) (ei : IVec S2x800000 32) (W0 : Mat 64 64) : Mat 50000 64 :=
  aggAt64 (F := Ideal) (srcRaw ei) (dstRaw ei) (st_k0 x ei W0)
/-- The second launch's result. -/
def st_k1 (x : Mat 50000 64) (ei : IVec S2x800000 32) (W0 : Mat 64 64) (b0 : FVec Ideal S64 .f32) (W1 : Mat 64 64) : Mat 50000 64 :=
  scaleRows (dcol ei) (mm (hidden (dcol ei) (st_p0 x ei W0) (brow64 b0)) W1)
def st_p1 (x : Mat 50000 64) (ei : IVec S2x800000 32) (W0 : Mat 64 64) (b0 : FVec Ideal S64 .f32) (W1 : Mat 64 64) : Mat 50000 64 :=
  aggAt64 (F := Ideal) (srcRaw ei) (dstRaw ei) (st_k1 x ei W0 b0 W1)
/-- The third launch's result, four columns wide. -/
def st_k2 (x : Mat 50000 64) (ei : IVec S2x800000 32) (W0 : Mat 64 64) (b0 : FVec Ideal S64 .f32) (W1 : Mat 64 64)
    (b1 : FVec Ideal S64 .f32) (W2 : Mat 64 4) : Mat 50000 4 :=
  scaleRows (dcol ei) (mm (hidden (dcol ei) (st_p1 x ei W0 b0 W1) (brow64 b1)) W2)
def st_p2 (x : Mat 50000 64) (ei : IVec S2x800000 32) (W0 : Mat 64 64) (b0 : FVec Ideal S64 .f32) (W1 : Mat 64 64)
    (b1 : FVec Ideal S64 .f32) (W2 : Mat 64 4) : Mat 50000 4 :=
  aggAt4 (F := Ideal) (srcRaw ei) (dstRaw ei) (st_k2 x ei W0 b0 W1 b1 W2)
/-- The program's result. -/
def kerOut (x : Mat 50000 64) (ei : IVec S2x800000 32) (W0 : Mat 64 64) (b0 : FVec Ideal S64 .f32) (W1 : Mat 64 64)
    (b1 : FVec Ideal S64 .f32) (W2 : Mat 64 4) (b2 : FVec Ideal S4 .f32) : Mat 50000 4 :=
  biasRows (brow4 b2) (scaleRows (dcol ei) (st_p2 x ei W0 b0 W1 b1 W2))

/-! ## Each launch's result and each aggregation, in turn -/

theorem s_v20 : W4 m ρ c (Proc.devRef .tc main_v20) = st_k0 (m ((c : Thread nD τ).loc main_arg0)) (m ((c : Thread nD τ).loc main_arg1)) (m ((c : Thread nD τ).loc main_arg2)) := by
  refine (W4_arr m ρ c 3).trans ((Reg0.final0 (V3 m ρ) c).trans ?_)
  show scaleRows (W3 m ρ c (Proc.devRef .tc main_v16)) (mm (W3 m ρ c (Proc.devRef .tc main_arg0)) (W3 m ρ c (Proc.devRef .tc main_arg2))) = _
  rw [b_v16, b_arg0, b_arg2]; rfl

theorem s_v30 : W5 m ρ c (Proc.devRef .tc main_v30) = st_p0 (m ((c : Thread nD τ).loc main_arg0)) (m ((c : Thread nD τ).loc main_arg1)) (m ((c : Thread nD τ).loc main_arg2)) := by
  show after (hostOps1 (F := Ideal)) (W4 m ρ c) (Proc.devRef .tc main_v30) = _
  rw [agg_v30, w4_v5, w4_v6, b_v5, b_v6, s_v20]; rfl

theorem s_v31 : W6 m ρ c (Proc.devRef .tc main_v31)
    = st_k1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ((Reg1.final1 (V5 m ρ) c).trans ?_)
  show scaleRows (W5 m ρ c (Proc.devRef .tc main_v16)) (mm (hidden (W5 m ρ c (Proc.devRef .tc main_v16)) (W5 m ρ c (Proc.devRef .tc main_v30)) (W5 m ρ c (Proc.devRef .tc main_v17)))
    (W5 m ρ c (Proc.devRef .tc main_arg4))) = _
  rw [w5_v16, w4_v16, b_v16, s_v30, w5_v17, w4_v17, b_v17, w5_arg4, w4_arg4, b_arg4]; rfl

theorem s_v41 : W7 m ρ c (Proc.devRef .tc main_v41)
    = st_p1 (m ((c : Thread nD τ).loc main_arg0)) (m ((c : Thread nD τ).loc main_arg1)) (m ((c : Thread nD τ).loc main_arg2)) (m ((c : Thread nD τ).loc main_arg3)) (m ((c : Thread nD τ).loc main_arg4)) := by
  show after (hostOps2 (F := Ideal)) (W6 m ρ c) (Proc.devRef .tc main_v41) = _
  rw [agg_v41, w6_v5, w5_v5, w4_v5, b_v5, w6_v6, w5_v6, w4_v6, b_v6, s_v31]; rfl

theorem s_v42 : W8 m ρ c (Proc.devRef .tc main_v42)
    = st_k2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 4).trans ((Reg2.final2 (V7 m ρ) c).trans ?_)
  show scaleRows (W7 m ρ c (Proc.devRef .tc main_v16)) (mm (hidden (W7 m ρ c (Proc.devRef .tc main_v16)) (W7 m ρ c (Proc.devRef .tc main_v41)) (W7 m ρ c (Proc.devRef .tc main_v18)))
    (W7 m ρ c (Proc.devRef .tc main_arg6))) = _
  rw [w7_v16, w6_v16, w5_v16, w4_v16, b_v16, s_v41, w7_v18, w6_v18, w5_v18, w4_v18, b_v18, w7_arg6, w6_arg6, w5_arg6, w4_arg6, b_arg6]; rfl

theorem s_v52 : W9 m ρ c (Proc.devRef .tc main_v52)
    = st_p2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show after (hostOps3 (F := Ideal)) (W8 m ρ c) (Proc.devRef .tc main_v52) = _
  rw [agg_v52, w8_v5, w7_v5, w6_v5, w5_v5, w4_v5, b_v5, w8_v6, w7_v6, w6_v6, w5_v6, w4_v6, b_v6, s_v42]; rfl

/-- The result array after the last launch, as one function of the eight arguments. -/
theorem s_v53 : W10 m ρ c (Proc.devRef .tc main_v53)
    = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((Reg3.final3 (V9 m ρ) c).trans ?_)
  show biasRows (W9 m ρ c (Proc.devRef .tc main_v19)) (scaleRows (W9 m ρ c (Proc.devRef .tc main_v16)) (W9 m ρ c (Proc.devRef .tc main_v52))) = _
  rw [w9_v19, w8_v19, w7_v19, w6_v19, w5_v19, w4_v19, b_v19, w9_v16, w8_v16, w7_v16, w6_v16, w5_v16, w4_v16, b_v16, s_v52]; rfl

end Cert.KernelIdeal.KerChain

end
-- ==== Proof.LibGcnBridge.lean ====
/-
  A graph-convolution layer with its edge weights split into a factor per source and a factor per
  destination, on the extended reals.

  Write S(j) for the edges that land on node j, g(e) for the node edge e reads, and δ for a
  multiplier per node. One way to aggregate is Σ_{e ∈ S(j)} H(g e, k) · (δ(g e) · δ(j)): every message
  weighted by the product of its two ends' multipliers. The other scales the rows first, sums, and
  scales the sum: δ(j) · Σ_{e ∈ S(j)} δ(g e) · H(g e, k). The two agree as soon as δ(j) distributes
  over a finite sum, which on the extended reals holds for a multiplier that is non-negative and not
  +∞ — and 1/√(count) under "count > 0", zero otherwise, is such a multiplier whatever the count.
  Nothing is asked of H: its entries may be infinite.
-/
import proofs.«176285_j20882130993665_1_alg».proof.Proof.LibGcnLayer
import proofs.«176285_j20882130993665_1_alg».proof.Proof.LibIndexed
import proofs.«176285_j20882130993665_1_alg».proof.Proof.LibGraphConv

noncomputable section

open scoped BigOperators

namespace Cert.GcnBridge

open Cert.Dense Cert.GcnLayer Cert.Indexed Cert.GraphConv Idealize.ShloMosaic Idealize.ShloMosaic.ValueIdx

/-! ## Multipliers that distribute over sums -/

/-- Non-negative and not +∞. -/
def Tame (x : EReal) : Prop := 0 ≤ x ∧ x ≠ ⊤

theorem tame_zero : Tame 0 := ⟨le_refl _, EReal.zero_ne_top⟩

/-- A tame multiplier distributes over a finite sum of arbitrary extended reals. -/
theorem Tame.mul_sum {ι : Type} {x : EReal} (hx : Tame x) (s : Finset ι) (f : ι → EReal) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top hx.1 hx.2, ih]

/-- The reciprocal square root of a real where it is positive, zero elsewhere, is tame. -/
theorem tame_select_rsqrt (x : EReal) (hx : IsReal x) :
    Tame (Scalar.select (Ideal.cmp .ogt x 0) (Ideal.rsqrt x) 0) := by
  obtain ⟨r, rfl⟩ := hx
  show Tame (if BitVec.ofBool (decide ((0 : EReal) < (r : EReal))) = 1 then Ideal.rsqrt (r : EReal) else 0)
  by_cases h : (0 : EReal) < (r : EReal)
  · have hr : 0 < r := EReal.coe_pos.mp h
    rw [if_pos (by simp [h])]
    rw [Ideal.rsqrt_coe, if_neg (not_lt.mpr hr.le), if_neg hr.ne']
    exact ⟨EReal.coe_nonneg.mpr (inv_nonneg.mpr (Real.sqrt_nonneg r)), EReal.coe_ne_top _⟩
  · rw [if_neg (by simp [h])]
    exact tame_zero

/-- The same with the comparison and the reciprocal square root spelt as the host's operations, and the two zeros given. -/
theorem tame_dinv_entry {φ : FTy} (x z z' : EReal) (hx : IsReal x) (hz : z = 0) (hz' : z' = 0) :
    Tame (Scalar.select (FloatOps.cmpf (F := Ideal) (φ := φ) .ogt x z) (FloatOps.hostUnary (F := Ideal) (φ := φ) .rsqrt x) z') := by
  subst hz hz'
  exact tame_select_rsqrt x hx

/-- The host's reciprocal square root of an array, at an entry. -/
theorem hostRsqrt_apply {s : Shape} {φ : FTy} (x : FVec Ideal s φ) (i : s.Idx) :
    Host.rsqrt x i = FloatOps.hostUnary (F := Ideal) .rsqrt (x i) := rfl

/-- Zero plus a finite sum of ones is a real. -/
theorem isReal_count {ι : Type} (s : Finset ι) (f : ι → EReal) (hf : ∀ e ∈ s, f e = 1) (z : EReal) (hz : z = 0) :
    IsReal (z + ∑ e ∈ s, f e) := by
  subst hz
  exact IsReal.add isReal_zero (IsReal.sum s f fun e he => ⟨1, by rw [hf e he]; rfl⟩)

/-! ## The layer identity -/

/-- At one entry: scaling the sum of pre-scaled messages is summing the messages weighted by both ends. -/
theorem layer_entry {ι : Type} (L : Finset ι) (δj : EReal) (hδ : Tame δj) (δg h ν : ι → EReal)
    (hν : ∀ e ∈ L, ν e = δg e * δj) :
    δj * ∑ e ∈ L, δg e * h e = ∑ e ∈ L, h e * ν e := by
  rw [hδ.mul_sum]
  refine Finset.sum_congr rfl fun e he => ?_
  rw [hν e he, ← mul_assoc, mul_comm δj (δg e), mul_comm (h e)]

variable {n E C : ℕ}

/-- On arrays: if PK aggregates the rows of H pre-scaled by δ, and OR aggregates the rows of H weighted by ν and adds
    the bias, then scaling PK's rows by δ and adding the bias row gives OR. -/
theorem layer_eq (δ : Fin n → EReal) (hδ : ∀ j, Tame (δ j)) (L : Fin n → Finset (Fin E)) (g : Fin E → Fin n) (ν : Fin E → EReal)
    (hν : ∀ j, ∀ e ∈ L j, ν e = δ (g e) * δ j)
    (H PK OR : Mat n C) (dK : Mat n 1) (bK : Mat 1 C) (bR : Row C)
    (hdK : ∀ j, dK (ix2 j (0 : Fin 1)) = δ j) (hb : ∀ k, bK (ix2 (0 : Fin 1) k) = bR (ix1 k))
    (hPK : ∀ j k, PK (ix2 j k) = ∑ e ∈ L j, δ (g e) * H (ix2 (g e) k))
    (hOR : ∀ j k, OR (ix2 j k) = (∑ e ∈ L j, H (ix2 (g e) k) * ν e) + bR (ix1 k)) :
    biasRows bK (scaleRows dK PK) = OR := by
  funext i
  obtain ⟨j, k, rfl⟩ : ∃ (j : Fin n) (k : Fin C), i = ix2 j k := ⟨i 0, i 1, eq_ix2 i⟩
  rw [biasRows_apply, scaleRows_apply, hdK, hb, hPK, hOR,
    layer_entry (L j) (δ j) (hδ j) (fun e => δ (g e)) (fun e => H (ix2 (g e) k)) ν (hν j)]

/-! ## Reading the aggregation off a row gather and a row scatter-add -/

/-- The edges whose destination index, read signed and not clamped, names node j. -/
abbrev lands {w : ℕ} (dstc : IVec ⟨2, ![E, 1]⟩ w) (j : Fin n) : Finset (Fin E) :=
  Finset.univ.filter (fun r : Fin E => Names (dstc (ix2 r (0 : Fin 1))) j)

/-- The node an edge reads: its source index, read signed and clamped into the nodes. -/
abbrev reads {w : ℕ} (hn : 0 < n) (srcc : IVec ⟨2, ![E, 1]⟩ w) (e : Fin E) : Fin n := clampRow n hn (srcc (ix2 e (0 : Fin 1)))

/-- Rows gathered at the edges' sources and accumulated into a zero array at their destinations. -/
theorem scatter_gather_apply {w : ℕ} (hn : 0 < n)
    (wfS : ScatterDims.WF ⟨2, ![n, C]⟩ ⟨2, ![E, 1]⟩ ⟨2, ![E, C]⟩ [1] [0] [0] 1)
    (wfG : GatherDims.WF ⟨2, ![n, C]⟩ ⟨2, ![E, 1]⟩ ⟨2, ![E, C]⟩ [1] [0] [] [0] [] 1 ![1, C])
    (Z : Mat n C) (hZ : ∀ i, Z i = 0) (dstc srcc : IVec ⟨2, ![E, 1]⟩ w) (X : Mat n C) (j : Fin n) (k : Fin C) :
    Ideal.hostScatterAdd (rowScatter n C E wfS) Z dstc (Host.gather (rowGather n C E wfG) X srcc) (ix2 j k)
      = ∑ e ∈ lands dstc j, X (ix2 (reads hn srcc e) k) := by
  rw [rowScatterAdd_apply, hZ, zero_add]
  exact Finset.sum_congr rfl fun e _ => rowGather_at hn wfG X srcc e k

/-- The same with every gathered row multiplied by its edge's weight before it is accumulated. -/
theorem scatter_weighted_apply {w : ℕ} (hn : 0 < n)
    (wfS : ScatterDims.WF ⟨2, ![n, C]⟩ ⟨2, ![E, 1]⟩ ⟨2, ![E, C]⟩ [1] [0] [0] 1)
    (wfG : GatherDims.WF ⟨2, ![n, C]⟩ ⟨2, ![E, 1]⟩ ⟨2, ![E, C]⟩ [1] [0] [] [0] [] 1 ![1, C])
    (Z : Mat n C) (hZ : ∀ i, Z i = 0) (dstc srcc : IVec ⟨2, ![E, 1]⟩ w) (H : Mat n C) (ν : Fin E → EReal)
    (U : Mat E C) (hU : ∀ e k, U (ix2 e k) = Host.gather (rowGather n C E wfG) H srcc (ix2 e k) * ν e)
    (j : Fin n) (k : Fin C) :
    Ideal.hostScatterAdd (rowScatter n C E wfS) Z dstc U (ix2 j k)
      = ∑ e ∈ lands dstc j, H (ix2 (reads hn srcc e) k) * ν e := by
  rw [rowScatterAdd_apply, hZ, zero_add]
  exact Finset.sum_congr rfl fun e _ => by rw [hU, rowGather_at hn wfG H srcc e k]

/-- An index that names a node is that node when clamped. -/
theorem clampRow_of_names {w : ℕ} (hn : 0 < n) (v : BitVec w) (j : Fin n) (h : Names v j) : clampRow n hn v = j := by
  refine Fin.ext ?_
  unfold Names at h
  show min v.toInt.toNat (n - 1) = j.val
  have := j.isLt
  omega

/-- Adding the node count to a negative index leaves an index that names a node as it is. -/
theorem wrap_of_names (v c : BitVec 32) (j : Fin n) (h : Names v j) :
    Scalar.select (IntOp.cmpi .slt v 0#32) (IntOp.addi v c) v = v := by
  unfold Names at h
  have hv : ¬ v.toInt < 0 := by omega
  show (if BitVec.ofBool (v.slt 0#32) = 1 then IntOp.addi v c else v) = v
  have hs : v.slt 0#32 = false := by
    rw [BitVec.slt_eq_decide]
    simpa using hv
  rw [hs]
  rfl

end Cert.GcnBridge

end
-- ==== Proof.LibLiterals.lean ====
/-
  The float literals the two programs scatter, read on the extended reals: the words of one and
  of zero in bf16 and in f32 denote `1` and `0`.
-/
import Idealize.ShloMosaic.PureOps.Ideal
import Idealize.ShloMosaic.PureOps.Ideal.Laws

namespace Cert.LibLiterals

open Idealize.ShloMosaic

/-- The bf16 word `0x3F80` (sign 0, exponent 127, fraction 0) denotes `1`. -/
theorem ofBits_bf16_one : Ideal.ofBits .bf16 0x3F80#16 = (1 : EReal) := by
  simp [Ideal.ofBits, Ideal.ieee, -EReal.coe_mul]; norm_num

/-- The f32 word `0x3F800000` (sign 0, exponent 127, fraction 0) denotes `1`. -/
theorem ofBits_f32_one : Ideal.ofBits .f32 0x3F800000#32 = (1 : EReal) := by
  simp [Ideal.ofBits, Ideal.ieee, -EReal.coe_mul]; norm_num

/-- The bf16 word `0x0000` denotes `0`. -/
theorem ofBits_bf16_zero : Ideal.ofBits .bf16 0x0000#16 = (0 : EReal) := by
  simp [Ideal.ofBits, Ideal.ieee]

/-- The f32 word `0x00000000` denotes `0`. -/
theorem ofBits_f32_zero : Ideal.ofBits .f32 0x00000000#32 = (0 : EReal) := by
  simp [Ideal.ofBits, Ideal.ieee]

/-- The constant array of the bf16 word of one is `1` at every index. -/
theorem constant_bf16_one (s : Shape) (i : s.Idx) :
    (constant s .bf16 0x3F80#16 : FVec Ideal s .bf16) i = (1 : EReal) := ofBits_bf16_one

/-- The constant array of the f32 word of one is `1` at every index. -/
theorem constant_f32_one (s : Shape) (i : s.Idx) :
    (constant s .f32 0x3F800000#32 : FVec Ideal s .f32) i = (1 : EReal) := ofBits_f32_one

/-- The constant array of the bf16 word of zero is `0` at every index. -/
theorem constant_bf16_zero (s : Shape) (i : s.Idx) :
    (constant s .bf16 0x0000#16 : FVec Ideal s .bf16) i = (0 : EReal) := ofBits_bf16_zero

/-- The constant array of the f32 word of zero is `0` at every index. -/
theorem constant_f32_zero (s : Shape) (i : s.Idx) :
    (constant s .f32 0x00000000#32 : FVec Ideal s .f32) i = (0 : EReal) := ofBits_f32_zero

end Cert.LibLiterals
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.KerRead.lean ====
/-
  The kernel program's aggregation, column and bias rows read at an entry.
-/
import proofs.«176285_j20882130993665_1_alg».proof.Proof.KerChain
import proofs.«176285_j20882130993665_1_alg».proof.Proof.LibGcnBridge
import proofs.«176285_j20882130993665_1_alg».proof.Proof.LibLiterals
import proofs.«176285_j20882130993665_1_alg».proof.Proof.LibColumn

set_option maxRecDepth 16384

noncomputable section

open scoped BigOperators

namespace Cert.KernelIdeal.KerRead

open Cert.KernelIdeal Cert.KernelIdeal.Gen Cert.KernelIdeal.KerHost Cert.KernelIdeal.KerChain
open Cert.Dense Cert.GcnLayer Cert.GcnBridge Cert.Indexed Cert.GraphConv Cert.Layout
open Idealize.ShloMosaic Idealize.ShloMosaic.ValueIdx

theorem h5 : 0 < 50000 := by decide

theorem zero64 (i : S50000x64.Idx) :
    broadcastInDim S50000x64 ![] bcast_S_S50000x64 (constant (F := Ideal) S_ .f32 0x00000000#32) i = 0 := by
  rw [GraphConv.bcast_scalar_apply]; exact Cert.LibLiterals.constant_f32_zero _ _
theorem zero4 (i : S50000x4.Idx) :
    broadcastInDim S50000x4 ![] bcast_S_S50000x4 (constant (F := Ideal) S_ .f32 0x00000000#32) i = 0 := by
  rw [GraphConv.bcast_scalar_apply]; exact Cert.LibLiterals.constant_f32_zero _ _

/-- The aggregation of width 64 is the row scatter-add of the row gather (an equality of arrays). -/
theorem aggAt64_eq (src dst : IVec S850000 32) (X : Mat 50000 64) :
    aggAt64 (F := Ideal) src dst X
      = Ideal.hostScatterAdd (rowScatter 50000 64 850000 scatter_S50000x64_S850000x1_S850000x64_1_0_0_1_wf)
          (broadcastInDim S50000x64 ![] bcast_S_S50000x64 (constant (F := Ideal) S_ .f32 0x00000000#32)) (col dst)
          (Host.gather (rowGather 50000 64 850000 gather_S50000x64_S850000x1_S850000x64_1_0_n_n_0_1_164_wf) X (col (wrap src))) := rfl

/-- At an entry: the sum over the landing edges of the rows they read. -/
theorem aggAt64_apply (src dst : IVec S850000 32) (X : Mat 50000 64) (j : Fin 50000) (k : Fin 64) :
    aggAt64 (F := Ideal) src dst X (ix2 j k) = ∑ e ∈ lands (col dst) j, X (ix2 (reads h5 (col (wrap src)) e) k) :=
  (congrFun (aggAt64_eq src dst X) (ix2 j k)).trans
    (scatter_gather_apply h5 scatter_S50000x64_S850000x1_S850000x64_1_0_0_1_wf gather_S50000x64_S850000x1_S850000x64_1_0_n_n_0_1_164_wf
      (broadcastInDim S50000x64 ![] bcast_S_S50000x64 (constant (F := Ideal) S_ .f32 0x00000000#32)) zero64 (col dst) (col (wrap src)) X j k)

/-- The aggregation of width 4 is the row scatter-add of the row gather (an equality of arrays). -/
theorem aggAt4_eq (src dst : IVec S850000 32) (X : Mat 50000 4) :
    aggAt4 (F := Ideal) src dst X
      = Ideal.hostScatterAdd (rowScatter 50000 4 850000 scatter_S50000x4_S850000x1_S850000x4_1_0_0_1_wf)
          (broadcastInDim S50000x4 ![] bcast_S_S50000x4 (constant (F := Ideal) S_ .f32 0x00000000#32)) (col dst)
          (Host.gather (rowGather 50000 4 850000 gather_S50000x4_S850000x1_S850000x4_1_0_n_n_0_1_14_wf) X (col (wrap src))) := rfl

/-- At an entry: the sum over the landing edges of the rows they read. -/
theorem aggAt4_apply (src dst : IVec S850000 32) (X : Mat 50000 4) (j : Fin 50000) (k : Fin 4) :
    aggAt4 (F := Ideal) src dst X (ix2 j k) = ∑ e ∈ lands (col dst) j, X (ix2 (reads h5 (col (wrap src)) e) k) :=
  (congrFun (aggAt4_eq src dst X) (ix2 j k)).trans
    (scatter_gather_apply h5 scatter_S50000x4_S850000x1_S850000x4_1_0_0_1_wf gather_S50000x4_S850000x1_S850000x4_1_0_n_n_0_1_14_wf
      (broadcastInDim S50000x4 ![] bcast_S_S50000x4 (constant (F := Ideal) S_ .f32 0x00000000#32)) zero4 (col dst) (col (wrap src)) X j k)

/-- The column d at row j is the multiplier of node j. -/
theorem dcol_apply (ei : IVec S2x800000 32) (j : Fin 50000) :
    dcol ei (ix2 j (0 : Fin 1)) = dinv (F := Ideal) ei (ix1 j) := cast_vec_col_apply _ _ j 0

/-- A bias row at column k is the bias vector's entry k. -/
theorem brow64_apply (b : FVec Ideal S64 .f32) (k : Fin 64) : brow64 b (ix2 (0 : Fin 1) k) = b (ix1 k) :=
  cast_vec_row_apply _ _ k
theorem brow4_apply (b : FVec Ideal S4 .f32) (k : Fin 4) : brow4 b (ix2 (0 : Fin 1) k) = b (ix1 k) :=
  cast_vec_row_apply _ _ k

end Cert.KernelIdeal.KerRead

end
-- ==== Proof.RefRun.lean ====
/-
  The run of the reference program, read back as one composed term.

  The reference is a three-layer graph convolution over a graph of 50000 nodes and 800000 directed edges, to which
  one self-loop per node is appended (850000 edges in all). With src / dst the two endpoint vectors, deg the number
  of edges arriving at each node, dinv = 1 / sqrt deg where deg > 0 and 0 elsewhere, and norm the per-edge weight
  dinv[src] * dinv[dst], a layer sends node features h to

      scatter-add over the edges, at dst, of (h · W)[src] * norm, plus the bias b,

  and the layers are separated by the leaky rectifier of slope 0.2. This module lists @main's operations in program
  order (the three calls of its outlined functions unfolded at their call sites), proves @main is that straight
  line, names the result stage by stage as pure functions of the argument arrays, and states the run: every weakly
  fair execution terminates with the result buffer at the composed term and the eight arguments unchanged.
-/
import proofs.«176285_j20882130993665_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's 115 operations, in program order, the calls unfolded: the select of the first call (the inverse square
    root kept where the degree is positive) writes the call's one buffer; each of the two rectifier calls is seven
    operations over its own record — the zero and its broadcast, the comparison with it, the slope converted to its
    own type and broadcast, the product, and the nested call's select. -/
abbrev ops : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.unary main_cst_2 main_v14 (broadcastInDim S50000 ![] bcast_S_S50000 : (⟨S_, .f32⟩ : BufTy).Contents (Elt F) → (⟨S50000, .f32⟩ : BufTy).Contents (Elt F)),
    TRef.ternary (.of main_v12) (.of main_v13) (.of main_v14) main_call0.v0 select,
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v5 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v5 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v6 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v6 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)),
    StableHlo.binary main_arg0 main_arg2 main_v31 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v5 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v5 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v5 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v31 main_v37 main_v38 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v30 main_v39 (broadcastInDim S850000x1 ![0] bcast_S850000_S850000x1_0 : (⟨S850000, .f32⟩ : BufTy).Contents (Elt F) → (⟨S850000x1, .f32⟩ : BufTy).Contents (Elt F)),
    StableHlo.unary main_v39 main_v40 (broadcastInDim S850000x64 ![0, 1] bcast_S850000x1_S850000x64_0_1 : (⟨S850000x1, .f32⟩ : BufTy).Contents (Elt F) → (⟨S850000x64, .f32⟩ : BufTy).Contents (Elt F)),
    StableHlo.binary main_v38 main_v40 main_v41 (mulf : (⟨S850000x64, .f32⟩ : BufTy).Contents (Elt F) → (⟨S850000x64, .f32⟩ : BufTy).Contents (Elt F) → (⟨S850000x64, .f32⟩ : BufTy).Contents (Elt F)),
    StableHlo.nullary main_cst_8 (constant S_ .f32 0x00000000#32),
    StableHlo.unary main_cst_8 main_v42 (broadcastInDim S50000x64 ![] bcast_S_S50000x64 : (⟨S_, .f32⟩ : BufTy).Contents (Elt F) → (⟨S50000x64, .f32⟩ : BufTy).Contents (Elt F)),
    StableHlo.unary main_v6 main_v43 (broadcastInDim S850000x1 ![0] bcast_S850000_S850000x1_0 : (⟨S850000, .i32⟩ : BufTy).Contents (Elt F) → (⟨S850000x1, .i32⟩ : BufTy).Contents (Elt F)),
    StableHlo.ternary main_v42 main_v43 main_v41 main_v44 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S50000x64 ![0, 1] bcast_S1x64_S50000x64_0_1 : (⟨S1x64, .f32⟩ : BufTy).Contents (Elt F) → (⟨S50000x64, .f32⟩ : BufTy).Contents (Elt F)),
    StableHlo.binary main_v44 main_v46 main_v47 (addf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x3E4CCCCD#32),
    TRef.nullary main_call1.cst (constant S_ .f32 0x00000000#32),
    TRef.unary main_call1.cst main_call1.v0 (broadcastInDim S50000x64 ![] bcast_S_S50000x64),
    TRef.binary (.of main_v47) main_call1.v0 main_call1.v1 (cmpf .oge),
    TRef.unary (.of main_cst_9) main_call1.v2 id,
    TRef.unary main_call1.v2 main_call1.v3 (broadcastInDim S50000x64 ![] bcast_S_S50000x64),
    TRef.binary main_call1.v3 (.of main_v47) main_call1.v4 mulf,
    TRef.ternary main_call1.v1 (.of main_v47) main_call1.v4 main_call1.call0.v0 select,
    StableHlo.binary main_v48 main_arg4 main_v49 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_c_10 (constantI S_ 32 0#32),
    StableHlo.unary main_c_10 main_v50 (broadcastInDim S850000 ![] bcast_S_S850000 : (⟨S_, .i32⟩ : BufTy).Contents (Elt F) → (⟨S850000, .i32⟩ : BufTy).Contents (Elt F)),
    StableHlo.binary main_v5 main_v50 main_v51 (cmpi .slt : (⟨S850000, .i32⟩ : BufTy).Contents (Elt F) → (⟨S850000, .i32⟩ : BufTy).Contents (Elt F) → (⟨S850000, .i1⟩ : BufTy).Contents (Elt F)),
    StableHlo.nullary main_c_11 (constantI S_ 32 50000#32),
    StableHlo.unary main_c_11 main_v52 (broadcastInDim S850000 ![] bcast_S_S850000 : (⟨S_, .i32⟩ : BufTy).Contents (Elt F) → (⟨S850000, .i32⟩ : BufTy).Contents (Elt F)),
    StableHlo.binary main_v5 main_v52 main_v53 (addi : (⟨S850000, .i32⟩ : BufTy).Contents (Elt F) → (⟨S850000, .i32⟩ : BufTy).Contents (Elt F) → (⟨S850000, .i32⟩ : BufTy).Contents (Elt F)),
    StableHlo.ternary main_v51 main_v53 main_v5 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v54 main_v55 (broadcastInDim S850000x1 ![0] bcast_S850000_S850000x1_0 : (⟨S850000, .i32⟩ : BufTy).Contents (Elt F) → (⟨S850000x1, .i32⟩ : BufTy).Contents (Elt F)),
    StableHlo.binary main_v49 main_v55 main_v56 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v30 main_v57 (broadcastInDim S850000x1 ![0] bcast_S850000_S850000x1_0 : (⟨S850000, .f32⟩ : BufTy).Contents (Elt F) → (⟨S850000x1, .f32⟩ : BufTy).Contents (Elt F)),
    StableHlo.unary main_v57 main_v58 (broadcastInDim S850000x64 ![0, 1] bcast_S850000x1_S850000x64_0_1 : (⟨S850000x1, .f32⟩ : BufTy).Contents (Elt F) → (⟨S850000x64, .f32⟩ : BufTy).Contents (Elt F)),
    StableHlo.binary main_v56 main_v58 main_v59 (mulf : (⟨S850000x64, .f32⟩ : BufTy).Contents (Elt F) → (⟨S850000x64, .f32⟩ : BufTy).Contents (Elt F) → (⟨S850000x64, .f32⟩ : BufTy).Contents (Elt F)),
    StableHlo.nullary main_cst_12 (constant S_ .f32 0x00000000#32),
    StableHlo.unary main_cst_12 main_v60 (broadcastInDim S50000x64 ![] bcast_S_S50000x64 : (⟨S_, .f32⟩ : BufTy).Contents (Elt F) → (⟨S50000x64, .f32⟩ : BufTy).Contents (Elt F)),
    StableHlo.unary main_v6 main_v61 (broadcastInDim S850000x1 ![0] bcast_S850000_S850000x1_0 : (⟨S850000, .i32⟩ : BufTy).Contents (Elt F) → (⟨S850000x1, .i32⟩ : BufTy).Contents (Elt F)),
    StableHlo.ternary main_v60 main_v61 main_v59 main_v62 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S50000x64 ![0, 1] bcast_S1x64_S50000x64_0_1 : (⟨S1x64, .f32⟩ : BufTy).Contents (Elt F) → (⟨S50000x64, .f32⟩ : BufTy).Contents (Elt F)),
    StableHlo.binary main_v62 main_v64 main_v65 (addf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3E4CCCCD#32),
    TRef.nullary main_call2.cst (constant S_ .f32 0x00000000#32),
    TRef.unary main_call2.cst main_call2.v0 (broadcastInDim S50000x64 ![] bcast_S_S50000x64),
    TRef.binary (.of main_v65) main_call2.v0 main_call2.v1 (cmpf .oge),
    TRef.unary (.of main_cst_13) main_call2.v2 id,
    TRef.unary main_call2.v2 main_call2.v3 (broadcastInDim S50000x64 ![] bcast_S_S50000x64),
    TRef.binary main_call2.v3 (.of main_v65) main_call2.v4 mulf,
    TRef.ternary main_call2.v1 (.of main_v65) main_call2.v4 main_call2.call0.v0 select,
    StableHlo.binary main_v66 main_arg6 main_v67 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.nullary main_c_14 (constantI S_ 32 0#32),
    StableHlo.unary main_c_14 main_v68 (broadcastInDim S850000 ![] bcast_S_S850000 : (⟨S_, .i32⟩ : BufTy).Contents (Elt F) → (⟨S850000, .i32⟩ : BufTy).Contents (Elt F)),
    StableHlo.binary main_v5 main_v68 main_v69 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v70 (broadcastInDim S850000 ![] bcast_S_S850000 : (⟨S_, .i32⟩ : BufTy).Contents (Elt F) → (⟨S850000, .i32⟩ : BufTy).Contents (Elt F)),
    StableHlo.binary main_v5 main_v70 main_v71 (addi : (⟨S850000, .i32⟩ : BufTy).Contents (Elt F) → (⟨S850000, .i32⟩ : BufTy).Contents (Elt F) → (⟨S850000, .i32⟩ : BufTy).Contents (Elt F)),
    StableHlo.ternary main_v69 main_v71 main_v5 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v72 main_v73 (broadcastInDim S850000x1 ![0] bcast_S850000_S850000x1_0 : (⟨S850000, .i32⟩ : BufTy).Contents (Elt F) → (⟨S850000x1, .i32⟩ : BufTy).Contents (Elt F)),
    StableHlo.binary main_v67 main_v73 main_v74 ((fun x i => Host.gather gather_S50000x4_S850000x1_S850000x4_1_0_n_n_0_1_14 x i) : (⟨S50000x4, .f32⟩ : BufTy).Contents (Elt F) → (⟨S850000x1, .i32⟩ : BufTy).Contents (Elt F) → (⟨S850000x4, .f32⟩ : BufTy).Contents (Elt F)),
    StableHlo.unary main_v30 main_v75 (broadcastInDim S850000x1 ![0] bcast_S850000_S850000x1_0 : (⟨S850000, .f32⟩ : BufTy).Contents (Elt F) → (⟨S850000x1, .f32⟩ : BufTy).Contents (Elt F)),
    StableHlo.unary main_v75 main_v76 (broadcastInDim S850000x4 ![0, 1] bcast_S850000x1_S850000x4_0_1 : (⟨S850000x1, .f32⟩ : BufTy).Contents (Elt F) → (⟨S850000x4, .f32⟩ : BufTy).Contents (Elt F)),
    StableHlo.binary main_v74 main_v76 main_v77 (mulf : (⟨S850000x4, .f32⟩ : BufTy).Contents (Elt F) → (⟨S850000x4, .f32⟩ : BufTy).Contents (Elt F) → (⟨S850000x4, .f32⟩ : BufTy).Contents (Elt F)),
    StableHlo.nullary main_cst_16 (constant S_ .f32 0x00000000#32),
    StableHlo.unary main_cst_16 main_v78 (broadcastInDim S50000x4 ![] bcast_S_S50000x4 : (⟨S_, .f32⟩ : BufTy).Contents (Elt F) → (⟨S50000x4, .f32⟩ : BufTy).Contents (Elt F)),
    StableHlo.unary main_v6 main_v79 (broadcastInDim S850000x1 ![0] bcast_S850000_S850000x1_0 : (⟨S850000, .i32⟩ : BufTy).Contents (Elt F) → (⟨S850000x1, .i32⟩ : BufTy).Contents (Elt F)),
    StableHlo.ternary main_v78 main_v79 main_v77 main_v80 ((fun x i u => Host.scatterAdd scatter_S50000x4_S850000x1_S850000x4_1_0_0_1 x i u) : (⟨S50000x4, .f32⟩ : BufTy).Contents (Elt F) → (⟨S850000x1, .i32⟩ : BufTy).Contents (Elt F) → (⟨S850000x4, .f32⟩ : BufTy).Contents (Elt F) → (⟨S50000x4, .f32⟩ : BufTy).Contents (Elt F)),
    StableHlo.unary main_arg7 main_v81 (broadcastInDim S1x4 ![1] bcast_S4_S1x4_1 : (⟨S4, .f32⟩ : BufTy).Contents (Elt F) → (⟨S1x4, .f32⟩ : BufTy).Contents (Elt F)),
    StableHlo.unary main_v81 main_v82 (broadcastInDim S50000x4 ![0, 1] bcast_S1x4_S50000x4_0_1 : (⟨S1x4, .f32⟩ : BufTy).Contents (Elt F) → (⟨S50000x4, .f32⟩ : BufTy).Contents (Elt F)),
    StableHlo.binary main_v80 main_v82 main_v83 (addf : (⟨S50000x4, .f32⟩ : BufTy).Contents (Elt F) → (⟨S50000x4, .f32⟩ : BufTy).Contents (Elt F) → (⟨S50000x4, .f32⟩ : BufTy).Contents (Elt F)) ]

set_option maxRecDepth 8192 in
set_option maxHeartbeats 4000000 in
/-- @main is that straight line: its two windows and the three functions' definitions unfolded, both sides are one
    chain of single operations once sequencing is reassociated. -/
theorem main_eq (c : Dev nD) : main (F := F) c = seq ops := by
  simp only [main, main_part0, main_part1, fn_where.body, fn_where_0.body, fn_leaky_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    unary_bufs_sub .., reshape_bufs_sub .., unary_bufs_sub .., reshape_bufs_sub .., nullary_bufs_sub .., binary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub ..⟩

/-! ## The result, stage by stage -/

/-- The source endpoint of every edge: row 0 of the edge table as a vector, then one self-loop per node
    (0, 1, …, 49999). -/
def srcRaw (ei : IVec S2x800000 32) : IVec S850000 32 :=
  concatenate S850000 0
    [⟨S800000, shapeCast S800000 (extractStridedSlice S1x800000 ![0, 0] ei slices_S2x800000_S1x800000_0_0) shapeCasts_S1x800000_S800000⟩,
     ⟨S50000, iotaInDim S50000 32 0⟩]
    concatenates_S800000_S50000_S850000_d0

/-- The destination endpoint of every edge: row 1 of the edge table as a vector, then the same self-loops. -/
def dstRaw (ei : IVec S2x800000 32) : IVec S850000 32 :=
  concatenate S850000 0
    [⟨S800000, shapeCast S800000 (extractStridedSlice S1x800000 ![1, 0] ei slices_S2x800000_S1x800000_1_0) shapeCasts_S1x800000_S800000⟩,
     ⟨S50000, iotaInDim S50000 32 0⟩]
    concatenates_S800000_S50000_S850000_d0

/-- A vector of one entry per edge as a column: the index table a gather or a scatter reads, or the weights
    before they are spread across the feature axis. -/
def col {α : Type} (v : S850000.Idx → α) : S850000x1.Idx → α :=
  broadcastInDim S850000x1 ![0] bcast_S850000_S850000x1_0 v

/-- A negative node index counted from the end: v + 50000 where v < 0, v elsewhere. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The degree of every node: from zero, one added at the destination of every edge. -/
def deg (ei : IVec S2x800000 32) : FVec F S50000 .f32 :=
  Host.scatterAdd scatter_S50000_S850000x1_S850000_n_0_0_1
    (broadcastInDim S50000 ![] bcast_S_S50000 (constant S_ .f32 0x00000000#32))
    (col (dstRaw ei))
    (broadcastInDim S850000 ![] bcast_S_S850000 (constant S_ .f32 0x3F800000#32))

/-- The inverse square root of the degree where the degree is positive, zero elsewhere. -/
def dinv (ei : IVec S2x800000 32) : FVec F S50000 .f32 :=
  select (cmpf .ogt (deg (F := F) ei) (broadcastInDim S50000 ![] bcast_S_S50000 (constant S_ .f32 0x00000000#32)))
    (Host.rsqrt (deg (F := F) ei))
    (broadcastInDim S50000 ![] bcast_S_S50000 (constant S_ .f32 0x00000000#32))

/-- The weight of every edge: the inverse square roots at its two endpoints, multiplied. -/
def norm (ei : IVec S2x800000 32) : FVec F S850000 .f32 :=
  mulf
    (Host.gather gather_S50000_S850000x1_S850000_n_0_n_n_0_1_1 (dinv (F := F) ei) (col (wrap (srcRaw ei))))
    (Host.gather gather_S50000_S850000x1_S850000_n_0_n_n_0_1_1 (dinv (F := F) ei) (col (wrap (dstRaw ei))))

/-- The leaky rectifier of slope 0.2 (the f32 nearest to it): h where h ≥ 0, 0.2 · h elsewhere. -/
def leaky (h : FVec F S50000x64 .f32) : FVec F S50000x64 .f32 :=
  select (cmpf .oge h (broadcastInDim S50000x64 ![] bcast_S_S50000x64 (constant S_ .f32 0x00000000#32)))
    h
    (mulf (broadcastInDim S50000x64 ![] bcast_S_S50000x64 (constant S_ .f32 0x3E4CCCCD#32)) h)

/-- A layer of width 64: the rows of h · W gathered at the source of every edge, weighted by the edge, added up
    at the destination of every edge from zero, plus the bias along the feature axis. -/
def layer64 (ei : IVec S2x800000 32) (h : FVec F S50000x64 .f32) (W : FVec F S64x64 .f32) (b : FVec F S64 .f32) :
    FVec F S50000x64 .f32 :=
  addf
    (Host.scatterAdd scatter_S50000x64_S850000x1_S850000x64_1_0_0_1
      (broadcastInDim S50000x64 ![] bcast_S_S50000x64 (constant S_ .f32 0x00000000#32))
      (col (dstRaw ei))
      (mulf
        (Host.gather gather_S50000x64_S850000x1_S850000x64_1_0_n_n_0_1_164
          (Host.dotGeneral dot_S50000x64_S64x64_S50000x64_1_0_0_1_n_n none h W) (col (wrap (srcRaw ei))))
        (broadcastInDim S850000x64 ![0, 1] bcast_S850000x1_S850000x64_0_1 (col (norm (F := F) ei)))))
    (broadcastInDim S50000x64 ![0, 1] bcast_S1x64_S50000x64_0_1 (broadcastInDim S1x64 ![1] bcast_S64_S1x64_1 b))

/-- The last layer, of width 4: the same with the 64 × 4 weights and the bias of four entries. -/
def layer4 (ei : IVec S2x800000 32) (h : FVec F S50000x64 .f32) (W : FVec F S64x4 .f32) (b : FVec F S4 .f32) :
    FVec F S50000x4 .f32 :=
  addf
    (Host.scatterAdd scatter_S50000x4_S850000x1_S850000x4_1_0_0_1
      (broadcastInDim S50000x4 ![] bcast_S_S50000x4 (constant S_ .f32 0x00000000#32))
      (col (dstRaw ei))
      (mulf
        (Host.gather gather_S50000x4_S850000x1_S850000x4_1_0_n_n_0_1_14
          (Host.dotGeneral dot_S50000x64_S64x4_S50000x4_1_0_0_1_n_n none h W) (col (wrap (srcRaw ei))))
        (broadcastInDim S850000x4 ![0, 1] bcast_S850000x1_S850000x4_0_1 (col (norm (F := F) ei)))))
    (broadcastInDim S50000x4 ![0, 1] bcast_S1x4_S50000x4_0_1 (broadcastInDim S1x4 ![1] bcast_S4_S1x4_1 b))

/-- What the program computes from its eight arguments: three layers, the rectifier between them. -/
def out (x : FVec F S50000x64 .f32) (ei : IVec S2x800000 32) (W0 : FVec F S64x64 .f32) (b0 : FVec F S64 .f32)
    (W1 : FVec F S64x64 .f32) (b1 : FVec F S64 .f32) (W2 : FVec F S64x4 .f32) (b2 : FVec F S4 .f32) :
    FVec F S50000x4 .f32 :=
  layer4 ei (leaky (layer64 ei (leaky (layer64 ei x W0 b0)) W1 b1)) W2 b2

/-! ## The fold at the result and at the arguments -/

attribute [local irreducible] Host.gather Host.scatterAdd Host.rsqrt concatenate extractStridedSlice in
set_option maxRecDepth 8192 in
set_option maxHeartbeats 46000000 in
/-- The operations' fold at the result buffer is `out` of the arguments' contents: each operation's result at its
    own buffer is its function's value and at any other buffer what was there, so the fold reads off the composed
    term; that term and `out` differ by the stage definitions' unfolding and by the typed references' casts, the
    identity at these literal references. The gathers, scatters, the inverse square root, the
    concatenation and the slices are kept folded meanwhile: the equation never looks inside them. -/
theorem out_eq (V : Valuation τ sig (Elt F)) :
    after ops V (main_v83 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

set_option maxRecDepth 8192 in
set_option maxHeartbeats 46000000 in
theorem arg0_eq (V : Valuation τ sig (Elt F)) :
    after ops V (main_arg0 : DevRef τ sig) = V (main_arg0 : DevRef τ sig) := by
  after_results_simp

set_option maxRecDepth 8192 in
set_option maxHeartbeats 46000000 in
theorem arg1_eq (V : Valuation τ sig (Elt F)) :
    after ops V (main_arg1 : DevRef τ sig) = V (main_arg1 : DevRef τ sig) := by
  after_results_simp

set_option maxRecDepth 8192 in
set_option maxHeartbeats 46000000 in
theorem arg2_eq (V : Valuation τ sig (Elt F)) :
    after ops V (main_arg2 : DevRef τ sig) = V (main_arg2 : DevRef τ sig) := by
  after_results_simp

set_option maxRecDepth 8192 in
set_option maxHeartbeats 46000000 in
theorem arg3_eq (V : Valuation τ sig (Elt F)) :
    after ops V (main_arg3 : DevRef τ sig) = V (main_arg3 : DevRef τ sig) := by
  after_results_simp

set_option maxRecDepth 8192 in
set_option maxHeartbeats 46000000 in
theorem arg4_eq (V : Valuation τ sig (Elt F)) :
    after ops V (main_arg4 : DevRef τ sig) = V (main_arg4 : DevRef τ sig) := by
  after_results_simp

set_option maxRecDepth 8192 in
set_option maxHeartbeats 46000000 in
theorem arg5_eq (V : Valuation τ sig (Elt F)) :
    after ops V (main_arg5 : DevRef τ sig) = V (main_arg5 : DevRef τ sig) := by
  after_results_simp

set_option maxRecDepth 8192 in
set_option maxHeartbeats 46000000 in
theorem arg6_eq (V : Valuation τ sig (Elt F)) :
    after ops V (main_arg6 : DevRef τ sig) = V (main_arg6 : DevRef τ sig) := by
  after_results_simp

set_option maxRecDepth 8192 in
set_option maxHeartbeats 46000000 in
theorem arg7_eq (V : Valuation τ sig (Elt F)) :
    after ops V (main_arg7 : DevRef τ sig) = V (main_arg7 : DevRef τ sig) := by
  after_results_simp

/-! ## The run -/

/-- On every device, for any float values, from any memory with zero counters: every weakly fair execution of
    @main terminates with the result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
        = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v83).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_seq scopedRefs_eq scopedSems_eq defs main (fun _ => ops) main_eq (fun _ => ops_sub) m ρ)

end Cert.ReferenceIdeal.RefRun

end
-- ==== Proof.RefRead.lean ====
/-
  The reference's stages read at an entry.

  A layer's result at node j and column k is the sum, over the edges landing on j, of entry k of the
  row of h·W the edge reads times the edge's weight, plus the bias of column k. The weight of an
  edge is the product of the multipliers of the two nodes it joins, and for an edge landing on j the
  second of them is j's own. The multiplier of a node is the reciprocal square root of a count where
  the count is positive and zero elsewhere: non-negative and never +∞.
-/
import proofs.«176285_j20882130993665_1_alg».proof.Proof.RefRun
import proofs.«176285_j20882130993665_1_alg».proof.Proof.LibGcnBridge
import proofs.«176285_j20882130993665_1_alg».proof.Proof.LibLiterals

set_option maxRecDepth 16384

noncomputable section

open scoped BigOperators

namespace Cert.ReferenceIdeal.RefRead

open Cert.ReferenceIdeal Cert.ReferenceIdeal.Gen Cert.ReferenceIdeal.RefRun Cert.Dense Cert.GcnLayer Cert.GcnBridge Cert.Indexed Cert.GraphConv
open Idealize.ShloMosaic Idealize.ShloMosaic.ValueIdx

theorem h5 : 0 < 50000 := by decide

/-- The zero array a layer of width 64 accumulates into. -/
theorem zero64 (i : S50000x64.Idx) :
    broadcastInDim S50000x64 ![] bcast_S_S50000x64 (constant (F := Ideal) S_ .f32 0x00000000#32) i = 0 := by
  rw [bcast_scalar_apply]; exact Cert.LibLiterals.constant_f32_zero _ _

/-- What a layer of width 64 accumulates: the rows of h·W gathered at the edges' sources, each times its edge's weight. -/
def upd64 (ei : IVec S2x800000 32) (h : FVec Ideal S50000x64 .f32) (W : FVec Ideal S64x64 .f32) : Mat 850000 64 :=
  mulf (Host.gather (rowGather 50000 64 850000 gather_S50000x64_S850000x1_S850000x64_1_0_n_n_0_1_164_wf)
      (Host.dotGeneral (F := Ideal) (DotDims.plain 50000 64 64) none h W) (col (wrap (srcRaw ei))))
    (broadcastInDim S850000x64 ![0, 1] bcast_S850000x1_S850000x64_0_1 (col (norm (F := Ideal) ei)))

/-- The layer as a row scatter-add into zero plus the broadcast bias (an equality of arrays). -/
theorem layer64_eq (ei : IVec S2x800000 32) (h : FVec Ideal S50000x64 .f32) (W : FVec Ideal S64x64 .f32) (b : FVec Ideal S64 .f32) :
    layer64 (F := Ideal) ei h W b
      = addf (Ideal.hostScatterAdd (rowScatter 50000 64 850000 scatter_S50000x64_S850000x1_S850000x64_1_0_0_1_wf)
            (broadcastInDim S50000x64 ![] bcast_S_S50000x64 (constant (F := Ideal) S_ .f32 0x00000000#32)) (col (dstRaw ei)) (upd64 ei h W))
          (broadcastInDim S50000x64 ![0, 1] bcast_S1x64_S50000x64_0_1 (broadcastInDim S1x64 ![1] bcast_S64_S1x64_1 b)) := rfl

/-- An accumulated row at an entry: the gathered row of h·W times the edge's weight. -/
theorem upd64_apply (ei : IVec S2x800000 32) (h : FVec Ideal S50000x64 .f32) (W : FVec Ideal S64x64 .f32) (e : Fin 850000) (k : Fin 64) :
    upd64 ei h W (ix2 e k)
      = Host.gather (rowGather 50000 64 850000 gather_S50000x64_S850000x1_S850000x64_1_0_n_n_0_1_164_wf) (mm h W)
          (col (wrap (srcRaw ei))) (ix2 e k) * norm (F := Ideal) ei (ix1 e) := by
  rw [show upd64 ei h W = mulf (Host.gather (rowGather 50000 64 850000 gather_S50000x64_S850000x1_S850000x64_1_0_n_n_0_1_164_wf)
        (Host.dotGeneral (F := Ideal) (DotDims.plain 50000 64 64) none h W) (col (wrap (srcRaw ei))))
      (broadcastInDim S850000x64 ![0, 1] bcast_S850000x1_S850000x64_0_1 (col (norm (F := Ideal) ei))) from rfl,
    mulf_apply, bcast_cols_apply, show col (norm (F := Ideal) ei) (ix2 e (0 : Fin 1)) = norm (F := Ideal) ei (ix1 e) from
      bcast_col_apply _ _ e 0, dotGeneral_plain]

/-- A layer of width 64 at an entry: the rows of h·W the landing edges read, each weighted by its edge, summed, plus
    the bias of the column. -/
theorem layer64_apply (ei : IVec S2x800000 32) (h : FVec Ideal S50000x64 .f32) (W : FVec Ideal S64x64 .f32) (b : FVec Ideal S64 .f32)
    (j : Fin 50000) (k : Fin 64) :
    layer64 (F := Ideal) ei h W b (ix2 j k)
      = (∑ e ∈ lands (col (dstRaw ei)) j, mm h W (ix2 (reads h5 (col (wrap (srcRaw ei))) e) k) * norm (F := Ideal) ei (ix1 e))
        + b (ix1 k) := by
  have hA := scatter_weighted_apply h5 scatter_S50000x64_S850000x1_S850000x64_1_0_0_1_wf
    gather_S50000x64_S850000x1_S850000x64_1_0_n_n_0_1_164_wf
    (broadcastInDim S50000x64 ![] bcast_S_S50000x64 (constant (F := Ideal) S_ .f32 0x00000000#32)) zero64
    (col (dstRaw ei)) (col (wrap (srcRaw ei))) (mm h W) (fun e => norm (F := Ideal) ei (ix1 e)) (upd64 ei h W) (upd64_apply ei h W) j k
  have hB : broadcastInDim S50000x64 ![0, 1] bcast_S1x64_S50000x64_0_1 (broadcastInDim S1x64 ![1] bcast_S64_S1x64_1 b) (ix2 j k)
      = b (ix1 k) := by
    rw [broadcastInDim_apply ![0, 1] bcast_S1x64_S50000x64_0_1 _ (ix2 j k) (ix2 (0 : Fin 1) k) (fun ax => by
        match ax with
        | ⟨0, _⟩ => rfl
        | ⟨1, _⟩ => rfl),
      broadcastInDim_apply ![1] bcast_S64_S1x64_1 b (ix2 (0 : Fin 1) k) (ix1 k) (fun ax => by
        match ax with
        | ⟨0, _⟩ => rfl)]
  exact (congrFun (layer64_eq ei h W b) (ix2 j k)).trans ((addf_apply _ _ _).trans (congr (congrArg HAdd.hAdd hA) hB))

/-- The zero array a layer of width 4 accumulates into. -/
theorem zero4 (i : S50000x4.Idx) :
    broadcastInDim S50000x4 ![] bcast_S_S50000x4 (constant (F := Ideal) S_ .f32 0x00000000#32) i = 0 := by
  rw [bcast_scalar_apply]; exact Cert.LibLiterals.constant_f32_zero _ _

/-- What a layer of width 4 accumulates: the rows of h·W gathered at the edges' sources, each times its edge's weight. -/
def upd4 (ei : IVec S2x800000 32) (h : FVec Ideal S50000x64 .f32) (W : FVec Ideal S64x4 .f32) : Mat 850000 4 :=
  mulf (Host.gather (rowGather 50000 4 850000 gather_S50000x4_S850000x1_S850000x4_1_0_n_n_0_1_14_wf)
      (Host.dotGeneral (F := Ideal) (DotDims.plain 50000 64 4) none h W) (col (wrap (srcRaw ei))))
    (broadcastInDim S850000x4 ![0, 1] bcast_S850000x1_S850000x4_0_1 (col (norm (F := Ideal) ei)))

/-- The layer as a row scatter-add into zero plus the broadcast bias (an equality of arrays). -/
theorem layer4_eq (ei : IVec S2x800000 32) (h : FVec Ideal S50000x64 .f32) (W : FVec Ideal S64x4 .f32) (b : FVec Ideal S4 .f32) :
    layer4 (F := Ideal) ei h W b
      = addf (Ideal.hostScatterAdd (rowScatter 50000 4 850000 scatter_S50000x4_S850000x1_S850000x4_1_0_0_1_wf)
            (broadcastInDim S50000x4 ![] bcast_S_S50000x4 (constant (F := Ideal) S_ .f32 0x00000000#32)) (col (dstRaw ei)) (upd4 ei h W))
          (broadcastInDim S50000x4 ![0, 1] bcast_S1x4_S50000x4_0_1 (broadcastInDim S1x4 ![1] bcast_S4_S1x4_1 b)) := rfl

/-- An accumulated row at an entry: the gathered row of h·W times the edge's weight. -/
theorem upd4_apply (ei : IVec S2x800000 32) (h : FVec Ideal S50000x64 .f32) (W : FVec Ideal S64x4 .f32) (e : Fin 850000) (k : Fin 4) :
    upd4 ei h W (ix2 e k)
      = Host.gather (rowGather 50000 4 850000 gather_S50000x4_S850000x1_S850000x4_1_0_n_n_0_1_14_wf) (mm h W)
          (col (wrap (srcRaw ei))) (ix2 e k) * norm (F := Ideal) ei (ix1 e) := by
  rw [show upd4 ei h W = mulf (Host.gather (rowGather 50000 4 850000 gather_S50000x4_S850000x1_S850000x4_1_0_n_n_0_1_14_wf)
        (Host.dotGeneral (F := Ideal) (DotDims.plain 50000 64 4) none h W) (col (wrap (srcRaw ei))))
      (broadcastInDim S850000x4 ![0, 1] bcast_S850000x1_S850000x4_0_1 (col (norm (F := Ideal) ei))) from rfl,
    mulf_apply, bcast_cols_apply, show col (norm (F := Ideal) ei) (ix2 e (0 : Fin 1)) = norm (F := Ideal) ei (ix1 e) from
      bcast_col_apply _ _ e 0, dotGeneral_plain]

/-- A layer of width 4 at an entry: the rows of h·W the landing edges read, each weighted by its edge, summed, plus
    the bias of the column. -/
theorem layer4_apply (ei : IVec S2x800000 32) (h : FVec Ideal S50000x64 .f32) (W : FVec Ideal S64x4 .f32) (b : FVec Ideal S4 .f32)
    (j : Fin 50000) (k : Fin 4) :
    layer4 (F := Ideal) ei h W b (ix2 j k)
      = (∑ e ∈ lands (col (dstRaw ei)) j, mm h W (ix2 (reads h5 (col (wrap (srcRaw ei))) e) k) * norm (F := Ideal) ei (ix1 e))
        + b (ix1 k) := by
  have hA := scatter_weighted_apply h5 scatter_S50000x4_S850000x1_S850000x4_1_0_0_1_wf
    gather_S50000x4_S850000x1_S850000x4_1_0_n_n_0_1_14_wf
    (broadcastInDim S50000x4 ![] bcast_S_S50000x4 (constant (F := Ideal) S_ .f32 0x00000000#32)) zero4
    (col (dstRaw ei)) (col (wrap (srcRaw ei))) (mm h W) (fun e => norm (F := Ideal) ei (ix1 e)) (upd4 ei h W) (upd4_apply ei h W) j k
  have hB : broadcastInDim S50000x4 ![0, 1] bcast_S1x4_S50000x4_0_1 (broadcastInDim S1x4 ![1] bcast_S4_S1x4_1 b) (ix2 j k)
      = b (ix1 k) := by
    rw [broadcastInDim_apply ![0, 1] bcast_S1x4_S50000x4_0_1 _ (ix2 j k) (ix2 (0 : Fin 1) k) (fun ax => by
        match ax with
        | ⟨0, _⟩ => rfl
        | ⟨1, _⟩ => rfl),
      broadcastInDim_apply ![1] bcast_S4_S1x4_1 b (ix2 (0 : Fin 1) k) (ix1 k) (fun ax => by
        match ax with
        | ⟨0, _⟩ => rfl)]
  exact (congrFun (layer4_eq ei h W b) (ix2 j k)).trans ((addf_apply _ _ _).trans (congr (congrArg HAdd.hAdd hA) hB))

/-! ## The rectifier, the edge weights and the multipliers -/

/-- The program's rectifier is the scalar leaky rectifier at every entry. -/
theorem leaky_eq (h : Mat 50000 64) : RefRun.leaky (F := Ideal) h = GcnLayer.leaky h := by
  funext i
  show Scalar.select (FloatOps.cmpf (F := Ideal) .oge (h i)
        (broadcastInDim S50000x64 ![] bcast_S_S50000x64 (constant (F := Ideal) S_ .f32 0x00000000#32) i)) (h i)
      (FloatOps.mulf (F := Ideal) (broadcastInDim S50000x64 ![] bcast_S_S50000x64 (constant (F := Ideal) S_ .f32 0x3E4CCCCD#32) i) (h i))
    = leakyE (h i)
  rw [bcast_scalar_apply, bcast_scalar_apply]
  rfl

/-- The zero vector the counts start from and are compared with, and the ones that are counted. -/
theorem zvec (j : Fin 50000) :
    broadcastInDim S50000 ![] bcast_S_S50000 (constant (F := Ideal) S_ .f32 0x00000000#32) (ix1 j) = 0 := by
  rw [bcast_scalar_apply]; exact Cert.LibLiterals.constant_f32_zero _ _
theorem ones (e : Fin 850000) :
    broadcastInDim S850000 ![] bcast_S_S850000 (constant (F := Ideal) S_ .f32 0x3F800000#32) (ix1 e) = 1 := by
  rw [bcast_scalar_apply]; exact Cert.LibLiterals.constant_f32_one _ _

/-- The counts as a flat scatter-add of ones into zero (an equality of arrays). -/
theorem deg_eq (ei : IVec S2x800000 32) :
    deg (F := Ideal) ei = Ideal.hostScatterAdd (flatScatter 50000 850000 scatter_S50000_S850000x1_S850000_n_0_0_1_wf)
      (broadcastInDim S50000 ![] bcast_S_S50000 (constant (F := Ideal) S_ .f32 0x00000000#32)) (col (dstRaw ei))
      (broadcastInDim S850000 ![] bcast_S_S850000 (constant (F := Ideal) S_ .f32 0x3F800000#32)) := rfl

/-- Every count is a real number. -/
theorem deg_real (ei : IVec S2x800000 32) (j : Fin 50000) : IsReal (deg (F := Ideal) ei (ix1 j)) := by
  rw [deg_eq, flatScatterAdd_at]
  exact isReal_count _ _ (fun e _ => ones e) _ (zvec j)

/-- Every node's multiplier is non-negative and not +∞. -/
theorem dinv_tame (ei : IVec S2x800000 32) (j : Fin 50000) : Tame (dinv (F := Ideal) ei (ix1 j)) := by
  rw [show dinv (F := Ideal) ei
      = select (cmpf .ogt (deg (F := Ideal) ei) (broadcastInDim S50000 ![] bcast_S_S50000 (constant (F := Ideal) S_ .f32 0x00000000#32)))
          (Host.rsqrt (deg (F := Ideal) ei)) (broadcastInDim S50000 ![] bcast_S_S50000 (constant (F := Ideal) S_ .f32 0x00000000#32)) from rfl,
    select_apply, cmpf_apply, hostRsqrt_apply]
  exact tame_dinv_entry _ _ _ (deg_real ei j) (zvec j) (zvec j)

/-- An edge's weight: the multipliers of the node it reads and of the node its (moved-up, clamped) destination names. -/
theorem norm_apply (ei : IVec S2x800000 32) (e : Fin 850000) :
    norm (F := Ideal) ei (ix1 e)
      = dinv (F := Ideal) ei (ix1 (reads h5 (col (wrap (srcRaw ei))) e))
        * dinv (F := Ideal) ei (ix1 (reads h5 (col (wrap (dstRaw ei))) e)) := by
  rw [show norm (F := Ideal) ei
      = mulf (Host.gather (flatGather 50000 850000 gather_S50000_S850000x1_S850000_n_0_n_n_0_1_1_wf) (dinv (F := Ideal) ei) (col (wrap (srcRaw ei))))
          (Host.gather (flatGather 50000 850000 gather_S50000_S850000x1_S850000_n_0_n_n_0_1_1_wf) (dinv (F := Ideal) ei) (col (wrap (dstRaw ei)))) from rfl,
    mulf_apply, flatGather_at h5, flatGather_at h5]

/-- For an edge landing on j, the moved-up and clamped destination is j. -/
theorem reads_dst (ei : IVec S2x800000 32) (j : Fin 50000) (e : Fin 850000) (he : e ∈ lands (col (dstRaw ei)) j) :
    reads h5 (col (wrap (dstRaw ei))) e = j := by
  have hn : Names (col (dstRaw ei) (ix2 e (0 : Fin 1))) j := (Finset.mem_filter.mp he).2
  have hc : col (dstRaw ei) (ix2 e (0 : Fin 1)) = dstRaw ei (ix1 e) := bcast_col_apply _ _ e 0
  rw [hc] at hn
  have hw : col (wrap (dstRaw ei)) (ix2 e (0 : Fin 1)) = dstRaw ei (ix1 e) := by
    rw [show col (wrap (dstRaw ei)) (ix2 e (0 : Fin 1)) = wrap (dstRaw ei) (ix1 e) from bcast_col_apply _ _ e 0]
    show Scalar.select (IntOp.cmpi .slt (dstRaw ei (ix1 e)) (broadcastInDim S850000 ![] bcast_S_S850000 (constantI S_ 32 0#32) (ix1 e)))
        (IntOp.addi (dstRaw ei (ix1 e)) (broadcastInDim S850000 ![] bcast_S_S850000 (constantI S_ 32 50000#32) (ix1 e)))
        (dstRaw ei (ix1 e)) = _
    rw [bcast_scalar_apply, bcast_scalar_apply]
    exact wrap_of_names _ _ j hn
  show clampRow 50000 h5 (col (wrap (dstRaw ei)) (ix2 e (0 : Fin 1))) = j
  rw [hw]
  exact clampRow_of_names h5 _ j hn

end Cert.ReferenceIdeal.RefRead

end
-- ==== Proof.Bridge.lean ====
/-
  The two programs compute one function.

  Both form the same index vectors and the same multipliers from the edge list. Layer by layer the
  kernel's aggregated array, with its rows scaled and the bias row added, is the reference's layer
  (the layer identity); the rectifier is the same scalar function on both sides; so the hidden
  activations agree, the products agree, and after the third layer the results agree. No finiteness
  of the arguments is used.
-/
import proofs.«176285_j20882130993665_1_alg».proof.Proof.KerRead
import proofs.«176285_j20882130993665_1_alg».proof.Proof.RefRead

set_option maxRecDepth 16384

noncomputable section

open scoped BigOperators

namespace Cert.Bridge

open Cert.KernelIdeal.KerChain Cert.Dense Cert.GcnLayer Cert.GcnBridge Cert.Indexed
open Idealize.ShloMosaic Idealize.ShloMosaic.ValueIdx

/-- The two programs' destination columns, source columns and multipliers are the same terms. -/
theorem dst_col (ei : IVec KernelIdeal.S2x800000 32) : KernelIdeal.KerHost.col (KernelIdeal.KerHost.dstRaw ei) = ReferenceIdeal.RefRun.col (ReferenceIdeal.RefRun.dstRaw ei) := rfl
theorem src_col (ei : IVec KernelIdeal.S2x800000 32) :
    KernelIdeal.KerHost.col (KernelIdeal.KerHost.wrap (KernelIdeal.KerHost.srcRaw ei)) = ReferenceIdeal.RefRun.col (ReferenceIdeal.RefRun.wrap (ReferenceIdeal.RefRun.srcRaw ei)) := rfl
theorem dinv_eq (ei : IVec KernelIdeal.S2x800000 32) : KernelIdeal.KerHost.dinv (F := Ideal) ei = ReferenceIdeal.RefRun.dinv (F := Ideal) ei := rfl

/-- One layer of width 64: the kernel's "scale, aggregate, scale, add the bias row" is the reference's "aggregate with the
    edges' weights, add the bias". -/
theorem layer64_bridge (ei : IVec KernelIdeal.S2x800000 32) (h : Mat 50000 64) (W : Mat 64 64) (b : Row 64) :
    biasRows (brow64 b) (scaleRows (dcol ei) (KernelIdeal.KerHost.aggAt64 (F := Ideal) (KernelIdeal.KerHost.srcRaw ei) (KernelIdeal.KerHost.dstRaw ei) (scaleRows (dcol ei) (mm h W))))
      = ReferenceIdeal.RefRun.layer64 (F := Ideal) ei h W b :=
  layer_eq (fun j => ReferenceIdeal.RefRun.dinv (F := Ideal) ei (ix1 j)) (ReferenceIdeal.RefRead.dinv_tame ei)
    (fun j => lands (ReferenceIdeal.RefRun.col (ReferenceIdeal.RefRun.dstRaw ei)) j) (reads ReferenceIdeal.RefRead.h5 (ReferenceIdeal.RefRun.col (ReferenceIdeal.RefRun.wrap (ReferenceIdeal.RefRun.srcRaw ei))))
    (fun e => ReferenceIdeal.RefRun.norm (F := Ideal) ei (ix1 e))
    (fun j e he => (ReferenceIdeal.RefRead.norm_apply ei e).trans (by rw [ReferenceIdeal.RefRead.reads_dst ei j e he]))
    (mm h W) _ _ (dcol ei) (brow64 b) b
    (fun j => (KernelIdeal.KerRead.dcol_apply ei j).trans (congrFun (dinv_eq ei) _))
    (KernelIdeal.KerRead.brow64_apply b)
    (fun j k => by
      rw [KernelIdeal.KerRead.aggAt64_apply, dst_col, src_col]
      refine Finset.sum_congr rfl fun e _ => ?_
      rw [scaleRows_apply, KernelIdeal.KerRead.dcol_apply, dinv_eq])
    (ReferenceIdeal.RefRead.layer64_apply ei h W b)

/-- One layer of width 4: the kernel's "scale, aggregate, scale, add the bias row" is the reference's "aggregate with the
    edges' weights, add the bias". -/
theorem layer4_bridge (ei : IVec KernelIdeal.S2x800000 32) (h : Mat 50000 64) (W : Mat 64 4) (b : Row 4) :
    biasRows (brow4 b) (scaleRows (dcol ei) (KernelIdeal.KerHost.aggAt4 (F := Ideal) (KernelIdeal.KerHost.srcRaw ei) (KernelIdeal.KerHost.dstRaw ei) (scaleRows (dcol ei) (mm h W))))
      = ReferenceIdeal.RefRun.layer4 (F := Ideal) ei h W b :=
  layer_eq (fun j => ReferenceIdeal.RefRun.dinv (F := Ideal) ei (ix1 j)) (ReferenceIdeal.RefRead.dinv_tame ei)
    (fun j => lands (ReferenceIdeal.RefRun.col (ReferenceIdeal.RefRun.dstRaw ei)) j) (reads ReferenceIdeal.RefRead.h5 (ReferenceIdeal.RefRun.col (ReferenceIdeal.RefRun.wrap (ReferenceIdeal.RefRun.srcRaw ei))))
    (fun e => ReferenceIdeal.RefRun.norm (F := Ideal) ei (ix1 e))
    (fun j e he => (ReferenceIdeal.RefRead.norm_apply ei e).trans (by rw [ReferenceIdeal.RefRead.reads_dst ei j e he]))
    (mm h W) _ _ (dcol ei) (brow4 b) b
    (fun j => (KernelIdeal.KerRead.dcol_apply ei j).trans (congrFun (dinv_eq ei) _))
    (KernelIdeal.KerRead.brow4_apply b)
    (fun j k => by
      rw [KernelIdeal.KerRead.aggAt4_apply, dst_col, src_col]
      refine Finset.sum_congr rfl fun e _ => ?_
      rw [scaleRows_apply, KernelIdeal.KerRead.dcol_apply, dinv_eq])
    (ReferenceIdeal.RefRead.layer4_apply ei h W b)

/-- The hidden activation after a layer: the rectified layer of the reference. -/
theorem hidden_bridge (ei : IVec KernelIdeal.S2x800000 32) (h : Mat 50000 64) (W : Mat 64 64) (b : Row 64) :
    hidden (dcol ei) (KernelIdeal.KerHost.aggAt64 (F := Ideal) (KernelIdeal.KerHost.srcRaw ei) (KernelIdeal.KerHost.dstRaw ei) (scaleRows (dcol ei) (mm h W))) (brow64 b)
      = ReferenceIdeal.RefRun.leaky (F := Ideal) (ReferenceIdeal.RefRun.layer64 (F := Ideal) ei h W b) := by
  rw [ReferenceIdeal.RefRead.leaky_eq, ← layer64_bridge]
  rfl

/-- The kernel program's result is the reference's, for all arguments. -/
theorem out_eq (x : Mat 50000 64) (ei : IVec KernelIdeal.S2x800000 32) (W0 : Mat 64 64) (b0 : Row 64) (W1 : Mat 64 64) (b1 : Row 64)
    (W2 : Mat 64 4) (b2 : Row 4) :
    kerOut x ei W0 b0 W1 b1 W2 b2 = ReferenceIdeal.RefRun.out (F := Ideal) x ei W0 b0 W1 b1 W2 b2 := by
  have hK : kerOut x ei W0 b0 W1 b1 W2 b2
      = biasRows (brow4 b2) (scaleRows (dcol ei) (KernelIdeal.KerHost.aggAt4 (F := Ideal) (KernelIdeal.KerHost.srcRaw ei) (KernelIdeal.KerHost.dstRaw ei)
          (scaleRows (dcol ei) (mm (hidden (dcol ei) (KernelIdeal.KerHost.aggAt64 (F := Ideal) (KernelIdeal.KerHost.srcRaw ei) (KernelIdeal.KerHost.dstRaw ei)
            (scaleRows (dcol ei) (mm (hidden (dcol ei) (KernelIdeal.KerHost.aggAt64 (F := Ideal) (KernelIdeal.KerHost.srcRaw ei) (KernelIdeal.KerHost.dstRaw ei)
              (scaleRows (dcol ei) (mm x W0))) (brow64 b0)) W1))) (brow64 b1)) W2)))) := rfl
  have hR : ReferenceIdeal.RefRun.out (F := Ideal) x ei W0 b0 W1 b1 W2 b2
      = ReferenceIdeal.RefRun.layer4 (F := Ideal) ei (ReferenceIdeal.RefRun.leaky (F := Ideal) (ReferenceIdeal.RefRun.layer64 (F := Ideal) ei
          (ReferenceIdeal.RefRun.leaky (F := Ideal) (ReferenceIdeal.RefRun.layer64 (F := Ideal) ei x W0 b0)) W1 b1)) W2 b2 := rfl
  rw [hK, hR, hidden_bridge, hidden_bridge]
  exact layer4_bridge ei _ W2 b2

end Cert.Bridge

end
-- ==== Proof.Claims.lean ====
/-
  The five claims.

  The kernel program is a three-layer graph convolution whose per-edge weight dinv(src)·dinv(dst) is
  split into a scaling of the rows before the aggregation and a scaling after it; the reference
  applies the weight edge by edge. Both run, leave their arguments unchanged, and end with the same
  result array as extended reals: the kernel's run ends at one function of the eight arguments (the
  four launches and the host operations between them read in turn), the reference's run at
  another, and the two functions are equal for all arguments because a node's multiplier, the
  reciprocal square root of a positive count or zero, is non-negative and never +∞ and so distributes
  over the sum along the edges.
-/
import proofs.«176285_j20882130993665_1_alg».proof.Defs
import proofs.«176285_j20882130993665_1_alg».proof.Proof.Gen.Kernel.Frame
import proofs.«176285_j20882130993665_1_alg».proof.Proof.Gen.Pre_finite_inputs
import proofs.«176285_j20882130993665_1_alg».proof.Proof.KerRun
import proofs.«176285_j20882130993665_1_alg».proof.Proof.Bridge

set_option maxRecDepth 16384

noncomputable section

namespace Cert.Proof.Claims

open Idealize.ShloMosaic Idealize.ShloMosaic.TcCoe Idealize.SL.Sem
open Cert.KernelIdeal.KerChain

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Nothing was rewritten when the kernel program was read on the extended reals. -/
theorem preserves : Cert.preserves_Kernel_KernelIdeal := trivial

/-- The kernel program's run ends with the result array at `kerOut` of the arguments and the arguments as launched. -/
theorem ker_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v53)
          = kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c => ⟨(h c).1.trans (s_v53 m ρ c), (h c).2⟩)
    (Cert.KernelIdeal.KerRun.run (F := Ideal) m ρ)

/-- From memories that agree on the arguments the two programs end with equal results. -/
theorem algebraic : Cert.algebraic_KernelIdeal_ReferenceIdeal := by
  intro m ρ m' ρ' _ hagree
  refine ⟨fun c => kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ker_run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7⟩ := hagree c
  rw [a0, a1, a2, a3, a4, a5, a6, a7]
  exact (Cert.Bridge.out_eq _ _ _ _ _ _ _ _).symm

end Cert.Proof.Claims

end
-- ==== Proof.lean ====
/-
  A three-layer graph convolution on 50000 nodes and 850000 edges (the edge list and one self loop per
  node): the kernel program against its reference.

  Every layer sends node features h to Σ_{edges e into j} (h·W)(src e) · dinv(src e) · dinv(j) + b, with
  dinv the reciprocal square root of a node's in-degree. The reference forms the weight
  dinv(src e)·dinv(dst e) per edge. The kernel program scales the rows of h·W by dinv inside a
  launch, gathers and accumulates along the edges on the host, and scales by dinv again (and adds
  the bias, applies the leaky rectifier, multiplies by the next weights) inside the next launch. The
  two agree on the extended reals for all arguments because dinv(j) is non-negative and never +∞, so
  it distributes over the sum; the index handling (an index below zero moved up by the node count
  and clamped when read, an accumulated row dropped when its destination is out of range) is the
  same on both sides. The claims are proved in Proof/Claims.lean from: the kernel program's run
  (Proof/KerRun.lean), each launch's result as a function of what it finds (Proof/Reg0 … Reg3.lean),
  the host operations between them (Proof/KerHost.lean, Proof/KerChain.lean), the reference's run
  (Proof/RefRun.lean, Proof/RefRead.lean) and the layer identity (Proof/LibGcnBridge.lean,
  Proof/Bridge.lean).
-/
import proofs.«176285_j20882130993665_1_alg».proof.Defs
import proofs.«176285_j20882130993665_1_alg».proof.Proof.Claims
import proofs.«176285_j20882130993665_1_alg».proof.Proof.Gen.Kernel
import proofs.«176285_j20882130993665_1_alg».proof.Proof.Gen.KernelIdeal
import proofs.«176285_j20882130993665_1_alg».proof.Proof.Gen.ReferenceIdeal
import proofs.«176285_j20882130993665_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
